-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x3 : Shape := ⟨2, ![2048, 3]⟩
abbrev S2048 : Shape := ⟨1, ![2048]⟩
abbrev S_ : Shape := ⟨0, ![]⟩

class Facts : Prop where
  bcast_S_S2048x3 : S_.BroadcastsInDim S2048x3 (![] : Fin 0 → Fin S2048x3.rank)
  reducesTo_S2048x3_S_d0_1 : S2048x3.ReducesTo [0, 1] S_
  h_S_ : 0 < S_.numel
  bcast_S_S2048 : S_.BroadcastsInDim S2048 (![] : Fin 0 → Fin S2048.rank)
  reducesTo_S2048_S_d0 : S2048.ReducesTo [0] S_

variable [Facts]

def fn {F : FTy → Type} [FloatOps F] (main_arg0 : FVec F S2048x3 .f32) (main_arg1 : FVec F S2048 .f32) : IVec S_ 1 :=
  let main_v0 : FVec F S2048x3 .f32 := Host.absf main_arg0
  let main_cst : FVec F S_ .f32 := constant S_ .f32 0x7F800000#32
  let main_v1 : FVec F S2048x3 .f32 := broadcastInDim S2048x3 ![] bcast_S_S2048x3 main_cst
  let main_v2 : IVec S2048x3 1 := cmpf .olt main_v0 main_v1
  let main_c : IVec S_ 1 := constantI S_ 1 1#1
  let main_v3 : IVec S_ 1 := (fun x v => Host.reduce IntOp.andi x v reducesTo_S2048x3_S_d0_1 h_S_) main_v2 main_c
  let main_v4 : FVec F S2048 .f32 := Host.absf main_arg1
  let main_cst_0 : FVec F S_ .f32 := constant S_ .f32 0x7F800000#32
  let main_v5 : FVec F S2048 .f32 := broadcastInDim S2048 ![] bcast_S_S2048 main_cst_0
  let main_v6 : IVec S2048 1 := cmpf .olt main_v4 main_v5
  let main_c_1 : IVec S_ 1 := constantI S_ 1 1#1
  let main_v7 : IVec S_ 1 := (fun x v => Host.reduce IntOp.andi x v reducesTo_S2048_S_d0 h_S_) main_v6 main_c_1
  let main_v8 : IVec S_ 1 := andi main_v3 main_v7
  main_v8
-- ==== Kernel.lean ====
abbrev S2048x3 : Shape := ⟨2, ![2048, 3]⟩
abbrev S2048 : Shape := ⟨1, ![2048]⟩
abbrev S3x2048 : Shape := ⟨2, ![3, 2048]⟩
abbrev S1x2048 : Shape := ⟨2, ![1, 2048]⟩
abbrev S1x1 : Shape := ⟨2, ![1, 1]⟩
abbrev S256x3 : Shape := ⟨2, ![256, 3]⟩
abbrev S256x2048 : Shape := ⟨2, ![256, 2048]⟩
abbrev S256x1 : Shape := ⟨2, ![256, 1]⟩
abbrev S1x256x2048 : Shape := ⟨3, ![1, 256, 2048]⟩
abbrev S1 : Shape := ⟨1, ![1]⟩
abbrev S1x1x1 : Shape := ⟨3, ![1, 1, 1]⟩
abbrev S_ : Shape := ⟨0, ![]⟩

abbrev nBuf : Space → Nat
  | .hbm => 6
  | .vmem => 5
  | .smem => 0
  | _ => 0

abbrev bufTy : (tb : Table) → Fin (tcTables nBuf tb) → BufTy
  | .hbm, ⟨0, _⟩ => ⟨S2048x3, .f32⟩
  | .hbm, ⟨1, _⟩ => ⟨S2048, .f32⟩
  | .hbm, ⟨2, _⟩ => ⟨S3x2048, .f32⟩
  | .hbm, ⟨3, _⟩ => ⟨S1x2048, .f32⟩
  | .hbm, ⟨4, _⟩ => ⟨S1x1, .f32⟩
  | .hbm, ⟨5, _⟩ => ⟨S_, .f32⟩
  | .local _ .vmem, ⟨0, _⟩ => ⟨S256x3, .f32⟩
  | .local _ .vmem, ⟨1, _⟩ => ⟨S256x3, .f32⟩
  | .local _ .vmem, ⟨2, _⟩ => ⟨S3x2048, .f32⟩
  | .local _ .vmem, ⟨3, _⟩ => ⟨S1x2048, .f32⟩
  | .local _ .vmem, ⟨4, _⟩ => ⟨S1x1, .f32⟩
  | _, _ => ⟨S2048x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v90 : BitVec 1 := Scalar.cmpi .eq arg0 c0_i32
  let v91 : BitVec 32 := Scalar.extui v90
  let c0_i32_35 : BitVec 32 := 0#32
  let v92 : BitVec 1 := Scalar.cmpi .ne v91 c0_i32_35
  v92

def k0_cond2 (i : grid0.Coords) : BitVec 1 :=
  let arg0 : BitVec 32 := BitVec.ofNat 32 (i 0).val
  let c0_i32_36 : BitVec 32 := 0#32
  let v93 : BitVec 1 := Scalar.cmpi .ne arg0 c0_i32_36
  let v94 : BitVec 32 := Scalar.extui v93
  let c0_i32_37 : BitVec 32 := 0#32
  let v95 : BitVec 1 := Scalar.cmpi .ne v94 c0_i32_37
  v95

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

class Facts₀ : Prop where
  transposes_S2048x3_S3x2048_1_0 : S2048x3.Transposes [1, 0] S3x2048
  shapeCasts_S2048_S1x2048 : S2048.ShapeCasts S1x2048
  inb_S256x3_S256x1_0_0 : ∀ a, (![0, 0] : Fin 2 → Nat) a + S256x1.size a ≤ S256x3.size a
  h_S256x1 : 0 < S256x1.numel
  inb_S3x2048_S1x2048_0_0 : ∀ a, (![0, 0] : Fin 2 → Nat) a + S1x2048.size a ≤ S3x2048.size a
  h_S1x2048 : 0 < S1x2048.numel
  shapeCasts_S1x2048_S1x2048 : S1x2048.ShapeCasts S1x2048
  broadcasts_S1x2048_S256x2048 : S1x2048.Broadcasts S256x2048
  broadcasts_S256x1_S256x2048 : S256x1.Broadcasts S256x2048
  inb_S256x3_S256x1_0_1 : ∀ a, (![0, 1] : Fin 2 → Nat) a + S256x1.size a ≤ S256x3.size a
  inb_S3x2048_S1x2048_1_0 : ∀ a, (![1, 0] : Fin 2 → Nat) a + S1x2048.size a ≤ S3x2048.size a
  inb_S256x3_S256x1_0_2 : ∀ a, (![0, 2] : Fin 2 → Nat) a + S256x1.size a ≤ S256x3.size a
  inb_S3x2048_S1x2048_2_0 : ∀ a, (![2, 0] : Fin 2 → Nat) a + S1x2048.size a ≤ S3x2048.size a
  iota_S256x2048_d0_w32 : S256x2048.Iotas .tc 32 [0]
  iota_S256x2048_d1_w32 : S256x2048.Iotas .tc 32 [1]
  inb_S1x2048_S1x2048_0_0 : ∀ a, (![0, 0] : Fin 2 → Nat) a + S1x2048.size a ≤ S1x2048.size a
  shapeCasts_S256x2048_S1x256x2048 : S256x2048.ShapeCasts S1x256x2048
  reduces_S1x256x2048_S1 : S1x256x2048.Reduces [1, 2] S1
  shapeCasts_S1_S1x1x1 : S1.ShapeCasts S1x1x1
  inpos_S1x1x1_p0_0_0 : ∀ a, (![0, 0, 0] : Fin 3 → Nat) a < S1x1x1.size a
  inb_S1x1_S1x1_0_0 : ∀ a, (![0, 0] : Fin 2 → Nat) a + S1x1.size a ≤ S1x1.size a
  h_S1x1 : 0 < S1x1.numel
  shapeCasts_S1x1_S1x1 : S1x1.ShapeCasts S1x1
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x3.size a ≤ S2048x3.size a
  hwx0_0 : ∀ i : grid0.Coords, EltTy.bits .f32 = 32 ∨ (Rect.block (s := S2048x3) S256x3.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3x2048.size a ≤ S3x2048.size a
  hwx0_1 : ∀ i : grid0.Coords, EltTy.bits .f32 = 32 ∨ (Rect.block (s := S3x2048) S3x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x2048.size a
  hwx0_2 : ∀ i : grid0.Coords, EltTy.bits .f32 = 32 ∨ (Rect.block (s := S1x2048) S1x2048.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)

variable [Facts₀]

abbrev win0_0 : Pipeline.Window sig grid0 :=
  Pipeline.Window.ofSpec (Memref.whole main_arg0) S256x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S3x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x1.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond1 i == 1#1) && !(k0_cond2 i == 1#1) | ⟨_ + 4, h⟩ => absurd h (Nat.not_lt.2 (Nat.le_add_left _ _))

class Facts : Prop extends Facts₀ where

variable [Facts]
-- ==== ReferenceIdeal.lean ====
abbrev S2048x3 : Shape := ⟨2, ![2048, 3]⟩
abbrev S2048 : Shape := ⟨1, ![2048]⟩
abbrev S3 : Shape := ⟨1, ![3]⟩
abbrev S1x2048x3 : Shape := ⟨3, ![1, 2048, 3]⟩
abbrev S2048x1x3 : Shape := ⟨3, ![2048, 1, 3]⟩
abbrev S2048x2048x3 : Shape := ⟨3, ![2048, 2048, 3]⟩
abbrev S_ : Shape := ⟨0, ![]⟩
abbrev S1x1x3 : Shape := ⟨3, ![1, 1, 3]⟩
abbrev S2048x2048 : Shape := ⟨2, ![2048, 2048]⟩
abbrev S1x2048 : Shape := ⟨2, ![1, 2048]⟩

abbrev nBuf : Space → Nat
  | .hbm => 68
  | .vmem => 0
  | .smem => 0
  | _ => 0

abbrev bufTy : (tb : Table) → Fin (tcTables nBuf tb) → BufTy
  | .hbm, ⟨0, _⟩ => ⟨S2048x3, .f32⟩
  | .hbm, ⟨1, _⟩ => ⟨S2048, .f32⟩
  | .hbm, ⟨2, _⟩ => ⟨S3, .f32⟩
  | .hbm, ⟨3, _⟩ => ⟨S1x2048x3, .f32⟩
  | .hbm, ⟨4, _⟩ => ⟨S2048x1x3, .f32⟩
  | .hbm, ⟨5, _⟩ => ⟨S2048x2048x3, .f32⟩
  | .hbm, ⟨6, _⟩ => ⟨S2048x2048x3, .f32⟩
  | .hbm, ⟨7, _⟩ => ⟨S2048x2048x3, .f32⟩
  | .hbm, ⟨8, _⟩ => ⟨S_, .f32⟩
  | .hbm, ⟨9, _⟩ => ⟨S3, .f32⟩
  | .hbm, ⟨10, _⟩ => ⟨S3, .f32⟩
  | .hbm, ⟨11, _⟩ => ⟨S1x1x3, .f32⟩
  | .hbm, ⟨12, _⟩ => ⟨S2048x2048x3, .f32⟩
  | .hbm, ⟨13, _⟩ => ⟨S2048x2048x3, .i1⟩
  | .hbm, ⟨14, _⟩ => ⟨S2048x2048x3, .f32⟩
  | .hbm, ⟨15, _⟩ => ⟨S2048x2048x3, .f32⟩
  | .hbm, ⟨16, _⟩ => ⟨S_, .f32⟩
  | .hbm, ⟨17, _⟩ => ⟨S3, .f32⟩
  | .hbm, ⟨18, _⟩ => ⟨S3, .f32⟩
  | .hbm, ⟨19, _⟩ => ⟨S1x1x3, .f32⟩
  | .hbm, ⟨20, _⟩ => ⟨S2048x2048x3, .f32⟩
  | .hbm, ⟨21, _⟩ => ⟨S2048x2048x3, .i1⟩
  | .hbm, ⟨22, _⟩ => ⟨S2048x2048x3, .f32⟩
  | .hbm, ⟨23, _⟩ => ⟨S2048x2048x3, .f32⟩
  | .hbm, ⟨24, _⟩ => ⟨S1x1x3, .f32⟩
  | .hbm, ⟨25, _⟩ => ⟨S2048x2048x3, .f32⟩
  | .hbm, ⟨26, _⟩ => ⟨S2048x2048x3, .f32⟩
  | .hbm, ⟨27, _⟩ => ⟨S2048x2048x3, .f32⟩
  | .hbm, ⟨28, _⟩ => ⟨S2048x2048x3, .f32⟩
  | .hbm, ⟨29, _⟩ => ⟨S_, .f32⟩
  | .hbm, ⟨30, _⟩ => ⟨S2048x2048, .f32⟩
  | .hbm, ⟨31, _⟩ => ⟨S_, .f32⟩
  | .hbm, ⟨32, _⟩ => ⟨S2048x2048, .f32⟩
  | .hbm, ⟨33, _⟩ => ⟨S2048x2048, .i1⟩
  | .hbm, ⟨34, _⟩ => ⟨S_, .f32⟩
  | .hbm, ⟨35, _⟩ => ⟨S2048x2048, .f32⟩
  | .hbm, ⟨36, _⟩ => ⟨S2048x2048, .i1⟩
  | .hbm, ⟨37, _⟩ => ⟨S2048x2048, .i1⟩
  | .hbm, ⟨38, _⟩ => ⟨S_, .i1⟩
  | .hbm, ⟨39, _⟩ => ⟨S2048x2048, .i1⟩
  | .hbm, ⟨40, _⟩ => ⟨S2048x2048, .i32⟩
  | .hbm, ⟨41, _⟩ => ⟨S_, .i32⟩
  | .hbm, ⟨42, _⟩ => ⟨S2048x2048, .i32⟩
  | .hbm, ⟨43, _⟩ => ⟨S2048x2048, .i32⟩
  | .hbm, ⟨44, _⟩ => ⟨S2048x2048, .i32⟩
  | .hbm, ⟨45, _⟩ => ⟨S2048x2048, .i1⟩
  | .hbm, ⟨46, _⟩ => ⟨S_, .i1⟩
  | .hbm, ⟨47, _⟩ => ⟨S2048x2048, .i1⟩
  | .hbm, ⟨48, _⟩ => ⟨S2048x2048, .i1⟩
  | .hbm, ⟨49, _⟩ => ⟨S2048x2048, .i1⟩
  | .hbm, ⟨50, _⟩ => ⟨S_, .f32⟩
  | .hbm, ⟨51, _⟩ => ⟨S_, .f32⟩
  | .hbm, ⟨52, _⟩ => ⟨S2048x2048, .f32⟩
  | .hbm, ⟨53, _⟩ => ⟨S2048x2048, .f32⟩
  | .hbm, ⟨54, _⟩ => ⟨S2048x2048, .f32⟩
  | .hbm, ⟨55, _⟩ => ⟨S1x2048, .f32⟩
  | .hbm, ⟨56, _⟩ => ⟨S1x2048, .f32⟩
  | .hbm, ⟨57, _⟩ => ⟨S_, .f32⟩
  | .hbm, ⟨58, _⟩ => ⟨S1x2048, .f32⟩
  | .hbm, ⟨59, _⟩ => ⟨S1x2048, .f32⟩
  | .hbm, ⟨60, _⟩ => ⟨S2048x2048, .f32⟩
  | .hbm, ⟨61, _⟩ => ⟨S2048x2048, .f32⟩
  | .hbm, ⟨62, _⟩ => ⟨S_, .f32⟩
  | .hbm, ⟨63, _⟩ => ⟨S_, .f32⟩
  | .hbm, ⟨64, _⟩ => ⟨S2048x2048, .f32⟩
  | .hbm, ⟨65, _⟩ => ⟨S2048x2048, .f32⟩
  | .hbm, ⟨66, _⟩ => ⟨S_, .f32⟩
  | .hbm, ⟨67, _⟩ => ⟨S_, .f32⟩
  | _, _ => ⟨S2048x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_cst_2 : Ref sig .tc := ⟨.hbm, 29, rfl⟩
abbrev main_v24 : Ref sig .tc := ⟨.hbm, 30, rfl⟩
abbrev main_cst_3 : Ref sig .tc := ⟨.hbm, 31, rfl⟩
abbrev main_v25 : Ref sig .tc := ⟨.hbm, 32, rfl⟩
abbrev main_v26 : Ref sig .tc := ⟨.hbm, 33, rfl⟩
abbrev main_cst_4 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_c : Ref sig .tc := ⟨.hbm, 38, rfl⟩
abbrev main_v30 : Ref sig .tc := ⟨.hbm, 39, rfl⟩
abbrev main_call0_v0 : Ref sig .tc := ⟨.hbm, 40, rfl⟩
abbrev main_call0_c : Ref sig .tc := ⟨.hbm, 41, rfl⟩
abbrev main_call0_v1 : Ref sig .tc := ⟨.hbm, 42, rfl⟩
abbrev main_call0_v2 : Ref sig .tc := ⟨.hbm, 43, rfl⟩
abbrev main_call0_v3 : Ref sig .tc := ⟨.hbm, 44, rfl⟩
abbrev main_call0_v4 : Ref sig .tc := ⟨.hbm, 45, rfl⟩
abbrev main_call0_c_0 : Ref sig .tc := ⟨.hbm, 46, rfl⟩
abbrev main_call0_v5 : Ref sig .tc := ⟨.hbm, 47, rfl⟩
abbrev main_v31 : Ref sig .tc := ⟨.hbm, 48, rfl⟩
abbrev main_v32 : Ref sig .tc := ⟨.hbm, 49, rfl⟩
abbrev main_cst_5 : Ref sig .tc := ⟨.hbm, 50, rfl⟩
abbrev main_call1_v0 : Ref sig .tc := ⟨.hbm, 51, rfl⟩
abbrev main_call1_v1 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_6 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_7 : Ref sig .tc := ⟨.hbm, 62, rfl⟩
abbrev main_call2_v0 : Ref sig .tc := ⟨.hbm, 63, rfl⟩
abbrev main_call2_v1 : Ref sig .tc := ⟨.hbm, 64, rfl⟩
abbrev main_v41 : Ref sig .tc := ⟨.hbm, 65, rfl⟩
abbrev main_cst_8 : Ref sig .tc := ⟨.hbm, 66, rfl⟩
abbrev main_v42 : Ref sig .tc := ⟨.hbm, 67, rfl⟩

abbrev nD : Nat := 1
abbrev τ : Topo := Topo.v7x

variable {F : FTy → Type} [FloatOps F]

class Facts₀ : Prop where
  bcast_S2048x3_S1x2048x3_1_2 : S2048x3.BroadcastsInDim S1x2048x3 (![1, 2] : Fin 2 → Fin S1x2048x3.rank)
  bcast_S2048x3_S2048x1x3_0_2 : S2048x3.BroadcastsInDim S2048x1x3 (![0, 2] : Fin 2 → Fin S2048x1x3.rank)
  bcast_S1x2048x3_S2048x2048x3_0_1_2 : S1x2048x3.BroadcastsInDim S2048x2048x3 (![0, 1, 2] : Fin 3 → Fin S2048x2048x3.rank)
  bcast_S2048x1x3_S2048x2048x3_0_1_2 : S2048x1x3.BroadcastsInDim S2048x2048x3 (![0, 1, 2] : Fin 3 → Fin S2048x2048x3.rank)
  bcast_S_S3 : S_.BroadcastsInDim S3 (![] : Fin 0 → Fin S3.rank)
  bcast_S3_S1x1x3_2 : S3.BroadcastsInDim S1x1x3 (![2] : Fin 1 → Fin S1x1x3.rank)
  bcast_S1x1x3_S2048x2048x3_0_1_2 : S1x1x3.BroadcastsInDim S2048x2048x3 (![0, 1, 2] : Fin 3 → Fin S2048x2048x3.rank)
  reducesTo_S2048x2048x3_S2048x2048_d2 : S2048x2048x3.ReducesTo [2] S2048x2048
  h_S_ : 0 < S_.numel
  bcast_S_S2048x2048 : S_.BroadcastsInDim S2048x2048 (![] : Fin 0 → Fin S2048x2048.rank)
  bcast_S2048_S1x2048_1 : S2048.BroadcastsInDim S1x2048 (![1] : Fin 1 → Fin S1x2048.rank)
  bcast_S_S1x2048 : S_.BroadcastsInDim S1x2048 (![] : Fin 0 → Fin S1x2048.rank)
  bcast_S1x2048_S2048x2048_0_1 : S1x2048.BroadcastsInDim S2048x2048 (![0, 1] : Fin 2 → Fin S2048x2048.rank)
  reducesTo_S2048x2048_S_d0_1 : S2048x2048.ReducesTo [0, 1] S_

variable [Facts₀]

class Facts : Prop extends Facts₀ where

variable [Facts]
-- ==== Proof.BodyBits.lean ====
/-
  The Coulomb kernel's body at a grid point, and the run of the whole call.

  A grid point `t` (of 8) owns rows `256 t … 256 t + 255` of the pair matrix.  The body reads its three input
  blocks — 256 rows of positions, all positions transposed, all charges —, forms ONE number, the sum of the pair
  energies over its 256 × 2048 entries, and keeps a running total in the 1 × 1 output block: the first point stores
  its number, every later point adds its number to what the point before left.  The block is written back once,
  after the last point.

  This module is stated for any float instance.  It has: the two conditions on the grid coordinate in closed form;
  the body's run in each of the two cases, the stores it leaves in the output block found by the run itself; what
  the output block holds after each point, by recursion on the point (`totalAt`); the pipeline's proof data over it;
  the body obligation; and the run of @main around the call.
-/
import proofs.«170483_g50903952392740_cont_sun_c4_305_3_alg».proof.Proof.Gen.Kernel.Frame
import proofs.«170483_g50903952392740_cont_sun_c4_305_3_alg».proof.Proof.Gen.Kernel.Skeleton

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The two conditions on the grid coordinate -/

/-- "This is the first point": the condition under which the body STORES its number. -/
abbrev atFirst (i : grid0.Coords) : Prop := k0_cond1 i = 1#1
/-- It holds at point 0 and nowhere else. -/
theorem atFirst_iff : ∀ t : Fin cfg0.N, atFirst (grid0.coords t) ↔ t.val = 0 :=
  (by decide +kernel : ∀ t : Fin grid0.N, atFirst (grid0.coords t) ↔ t.val = 0)

/-- "This is a later point": the condition under which the body ADDS its number to the running total. -/
abbrev atLater (i : grid0.Coords) : Prop := k0_cond2 i = 1#1
/-- It holds from point 1 on. -/
theorem atLater_iff : ∀ t : Fin cfg0.N, atLater (grid0.coords t) ↔ 1 ≤ t.val :=
  (by decide +kernel : ∀ t : Fin grid0.N, atLater (grid0.coords t) ↔ 1 ≤ t.val)

/-- One of the two stores happens at every point, so the output block is never left untouched. -/
theorem live3 : ∀ t : Fin cfg0.N, cfg0.idle 3 (grid0.coords t) = false :=
  (by decide +kernel : ∀ t : Fin grid0.N, cfg0.idle 3 (grid0.coords t) = false)
theorem live3_all : ∀ i : grid0.Coords, cfg0.idle 3 i = false := by decide +kernel

/-! ## The staging memrefs the body is called with -/

abbrev ms0 (t : Fin cfg0.N) : Memref sig .tc .vmem S256x3 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S3x2048 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x2048 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x1 .f32 := win0_3.stage (cfg0.slots t 3)
abbrev hs3 (t : Fin cfg0.N) : (ms3 t).IsWhole := hstage0_3 ((cfg0.slots t 3).cast nbuf0_3)

/-- The output block's one staging buffer, through which its contents are stated. -/
abbrev VO : View sig .tc .vmem S1x1 .f32 := (Memref.whole cc0_stg3_0 : Memref sig .tc .vmem S1x1 .f32).view

/-! ## The body's run, case by case -/

set_option maxHeartbeats 1000000 in
/-- AT THE FIRST POINT: with the inputs' buffers at `x0`, `x1`, `x2` and the output's at anything, the body runs and hands
    the inputs back as they were and the output with its stores (the list `L`, found by the run) written. -/
noncomputable def runFirst (c : Dev nD) (i : grid0.Coords) (arg1 : Memref sig .tc .vmem S256x3 .f32) (harg1 : arg1.IsWhole) (arg2 : Memref sig .tc .vmem S3x2048 .f32) (harg2 : arg2.IsWhole) (arg3 : Memref sig .tc .vmem S1x2048 .f32) (harg3 : arg3.IsWhole) (arg4 : Memref sig .tc .vmem S1x1 .f32) (harg4 : arg4.IsWhole) (hA : atFirst i) (hB : ¬atLater i)
    (x0 : Vec F S256x3 .f32) (x1 : Vec F S3x2048 .f32) (x2 : Vec F S1x2048 .f32) :
    { L : List (View.Piece (Elt F) S1x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d)
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L)) -∗ K ⟨⟩))
          ⊢ wp frame (wpE (defs₀ (F := F)) Variants.none c none) E (cc0__coulomb_body i arg1 harg1 arg2 harg2 arg3 harg3 arg4 harg4) K } := by
  refine ⟨?_, fun E K => ?run⟩
  case run =>
    simp only [cc0__coulomb_body_eq_skeleton]; unfold cc0__coulomb_body_skel
    simp only [k0_part1_eq_skeleton, k0_part2_eq_skeleton]
    unfold owns
    iintro ⟨⟨%f0, %hf0, H0⟩, ⟨%f1, %hf1, H1⟩, ⟨%f2, %hf2, H2⟩, ⟨%d3, %f3, -, H3⟩, Hk⟩
    obtain rfl := harg1.eq_unread hf0; obtain rfl := harg2.eq_unread hf1; obtain rfl := harg3.eq_unread hf2
    sl_exec (disch := first | exact hA | exact hB)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact H3

set_option maxHeartbeats 1000000 in
/-- AT A LATER POINT: the same, the output's buffer holding the running total `xo`, which the body reads. -/
noncomputable def runLater (c : Dev nD) (i : grid0.Coords) (arg1 : Memref sig .tc .vmem S256x3 .f32) (harg1 : arg1.IsWhole) (arg2 : Memref sig .tc .vmem S3x2048 .f32) (harg2 : arg2.IsWhole) (arg3 : Memref sig .tc .vmem S1x2048 .f32) (harg3 : arg3.IsWhole) (arg4 : Memref sig .tc .vmem S1x1 .f32) (harg4 : arg4.IsWhole) (hA : ¬atFirst i) (hB : atLater i)
    (x0 : Vec F S256x3 .f32) (x1 : Vec F S3x2048 .f32) (x2 : Vec F S1x2048 .f32) (xo : Vec F S1x1 .f32) :
    { L : List (View.Piece (Elt F) S1x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare xo
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L)) -∗ K ⟨⟩))
          ⊢ wp frame (wpE (defs₀ (F := F)) Variants.none c none) E (cc0__coulomb_body i arg1 harg1 arg2 harg2 arg3 harg3 arg4 harg4) K } := by
  refine ⟨?_, fun E K => ?run⟩
  case run =>
    simp only [cc0__coulomb_body_eq_skeleton]; unfold cc0__coulomb_body_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, Hk⟩
    obtain rfl := harg1.eq_unread hf0; obtain rfl := harg2.eq_unread hf1; obtain rfl := harg3.eq_unread hf2; obtain rfl := harg4.eq_unread hf3
    sl_exec (disch := first | exact hA | exact hB)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact H3

/-! ## What each case leaves in the output block -/

/-- The first point's stores cover the 1 × 1 block. -/
theorem coverFirst (c : Dev nD) (i : grid0.Coords) (arg1 : Memref sig .tc .vmem S256x3 .f32) (harg1 : arg1.IsWhole) (arg2 : Memref sig .tc .vmem S3x2048 .f32) (harg2 : arg2.IsWhole) (arg3 : Memref sig .tc .vmem S1x2048 .f32) (harg3 : arg3.IsWhole) (arg4 : Memref sig .tc .vmem S1x1 .f32) (harg4 : arg4.IsWhole) (hA : atFirst i) (hB : ¬atLater i)
    (x0 : Vec F S256x3 .f32) (x1 : Vec F S3x2048 .f32) (x2 : Vec F S1x2048 .f32) (y : S1x1.Idx) :
    ∃ pc ∈ (runFirst c i arg1 harg1 arg2 harg2 arg3 harg3 arg4 harg4 hA hB x0 x1 x2).1, y ∈ pc.1.set :=
  View.cover_of_tiledL (runFirst c i arg1 harg1 arg2 harg2 arg3 harg3 arg4 harg4 hA hB x0 x1 x2).1 S1x1.size (by sl_kernel_rfl) y

/-- What the first point leaves in the output block: its stores read back. -/
def outFirst (c : Dev nD) (i : grid0.Coords) (arg1 : Memref sig .tc .vmem S256x3 .f32) (harg1 : arg1.IsWhole) (arg2 : Memref sig .tc .vmem S3x2048 .f32) (harg2 : arg2.IsWhole) (arg3 : Memref sig .tc .vmem S1x2048 .f32) (harg3 : arg3.IsWhole) (arg4 : Memref sig .tc .vmem S1x1 .f32) (harg4 : arg4.IsWhole) (hA : atFirst i) (hB : ¬atLater i)
    (x0 : Vec F S256x3 .f32) (x1 : Vec F S3x2048 .f32) (x2 : Vec F S1x2048 .f32) : Vec F S1x1 .f32 :=
  VO.read (Elt F) (VO.writes (Elt F) VO.junk (runFirst c i arg1 harg1 arg2 harg2 arg3 harg3 arg4 harg4 hA hB x0 x1 x2).1)

/-- A later point's stores cover the 1 × 1 block. -/
theorem coverLater (c : Dev nD) (i : grid0.Coords) (arg1 : Memref sig .tc .vmem S256x3 .f32) (harg1 : arg1.IsWhole) (arg2 : Memref sig .tc .vmem S3x2048 .f32) (harg2 : arg2.IsWhole) (arg3 : Memref sig .tc .vmem S1x2048 .f32) (harg3 : arg3.IsWhole) (arg4 : Memref sig .tc .vmem S1x1 .f32) (harg4 : arg4.IsWhole) (hA : ¬atFirst i) (hB : atLater i)
    (x0 : Vec F S256x3 .f32) (x1 : Vec F S3x2048 .f32) (x2 : Vec F S1x2048 .f32) (xo : Vec F S1x1 .f32) (y : S1x1.Idx) :
    ∃ pc ∈ (runLater c i arg1 harg1 arg2 harg2 arg3 harg3 arg4 harg4 hA hB x0 x1 x2 xo).1, y ∈ pc.1.set :=
  View.cover_of_tiledL (runLater c i arg1 harg1 arg2 harg2 arg3 harg3 arg4 harg4 hA hB x0 x1 x2 xo).1 S1x1.size (by sl_kernel_rfl) y

/-- What a later point leaves in the output block, which held `xo`: its stores read back. -/
def outLater (c : Dev nD) (i : grid0.Coords) (arg1 : Memref sig .tc .vmem S256x3 .f32) (harg1 : arg1.IsWhole) (arg2 : Memref sig .tc .vmem S3x2048 .f32) (harg2 : arg2.IsWhole) (arg3 : Memref sig .tc .vmem S1x2048 .f32) (harg3 : arg3.IsWhole) (arg4 : Memref sig .tc .vmem S1x1 .f32) (harg4 : arg4.IsWhole) (hA : ¬atFirst i) (hB : atLater i)
    (x0 : Vec F S256x3 .f32) (x1 : Vec F S3x2048 .f32) (x2 : Vec F S1x2048 .f32) (xo : Vec F S1x1 .f32) : Vec F S1x1 .f32 :=
  VO.read (Elt F) (VO.writes (Elt F) VO.junk (runLater c i arg1 harg1 arg2 harg2 arg3 harg3 arg4 harg4 hA hB x0 x1 x2 xo).1)

/-! ## The running total, point by point -/

theorem first_of_zero (t : Fin cfg0.N) (h : t.val = 0) : atFirst (grid0.coords t) := (atFirst_iff t).mpr h
theorem notLater_of_zero (t : Fin cfg0.N) (h : t.val = 0) : ¬atLater (grid0.coords t) := fun hl => by
  have := (atLater_iff t).mp hl; omega
theorem notFirst_of_pos (t : Fin cfg0.N) (h : t.val ≠ 0) : ¬atFirst (grid0.coords t) := fun hf => h ((atFirst_iff t).mp hf)
theorem later_of_pos (t : Fin cfg0.N) (h : t.val ≠ 0) : atLater (grid0.coords t) := (atLater_iff t).mpr (Nat.one_le_iff_ne_zero.mpr h)

/-- What the output block holds after the body at point `n`: the first point's number, then each later point's
    number added to what the point before left (the block is not written back in between). -/
def totalAt (c : Dev nD) : (n : ℕ) → n < cfg0.N → Vec F S1x1 .f32
  | 0, hn => outFirst c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩)
      (first_of_zero ⟨0, hn⟩ rfl) (notLater_of_zero ⟨0, hn⟩ rfl) (iblk m c 0 ⟨0, hn⟩) (iblk m c 1 ⟨0, hn⟩) (iblk m c 2 ⟨0, hn⟩)
  | n + 1, hn => outLater c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩)
      (notFirst_of_pos ⟨n + 1, hn⟩ (Nat.succ_ne_zero n)) (later_of_pos ⟨n + 1, hn⟩ (Nat.succ_ne_zero n)) (iblk m c 0 ⟨n + 1, hn⟩) (iblk m c 1 ⟨n + 1, hn⟩) (iblk m c 2 ⟨n + 1, hn⟩)
      (totalAt c n (Nat.lt_of_succ_lt hn))

/-- `totalAt` at the first point. -/
theorem totalAt_first (c : Dev nD) (t : Fin cfg0.N) (h0 : t.val = 0) :
    totalAt m c t.val t.isLt = outFirst c (grid0.coords t) (ms0 t) (hs0 t) (ms1 t) (hs1 t) (ms2 t) (hs2 t) (ms3 t) (hs3 t)
      (first_of_zero t h0) (notLater_of_zero t h0) (iblk m c 0 t) (iblk m c 1 t) (iblk m c 2 t) := by
  obtain ⟨n, hn⟩ := t
  cases n with
  | zero => rfl
  | succ n => exact absurd h0 (Nat.succ_ne_zero n)

/-- `totalAt` at a later point: over what the point before left. -/
theorem totalAt_later (c : Dev nD) (t : Fin cfg0.N) (h0 : t.val ≠ 0) :
    totalAt m c t.val t.isLt = outLater c (grid0.coords t) (ms0 t) (hs0 t) (ms1 t) (hs1 t) (ms2 t) (hs2 t) (ms3 t) (hs3 t)
      (notFirst_of_pos t h0) (later_of_pos t h0) (iblk m c 0 t) (iblk m c 1 t) (iblk m c 2 t)
      (totalAt m c (t.val - 1) (Nat.lt_of_le_of_lt (Nat.sub_le _ _) t.isLt)) := by
  obtain ⟨n, hn⟩ := t
  cases n with
  | zero => exact absurd rfl h0
  | succ n => rfl

/-! ## The pipeline's proof data -/

/-- The arrays as the call finds them; after the body at point `t` each input's buffer at its block and the output's at
    the running total; the invariant the scoped rest; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (totalAt m c t.val t.isLt)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = totalAt m c t.val t.isLt := by dsimp only [dats]

/-- Each input's current staging buffer holds its block at every point, fetched there or not. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d

/-- At a later point the output's staging buffer holds what the body left at the point before: it was not written back
    in between (only the last point is), and the block is stored at every point. -/
theorem before3_later (c : Dev nD) (t : Fin cfg0.N) (h0 : t.val ≠ 0) (d) :
    (dats m 0 c).before 3 t d = totalAt m c (t.val - 1) (Nat.lt_of_le_of_lt (Nat.sub_le _ _) t.isLt) := by
  have hN : t.val < 8 := lt_of_lt_of_eq t.isLt (show cfg0.N = 8 from N_0)
  rw [Dat.before_out_kept _ 3 rfl t h0 (Bool.eq_false_iff.mpr fun h => by have := (flush0_3 _).mp h; dsimp only at this; omega)
    live3_all (fun _ _ => rfl)]
  dsimp only [dats]

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

set_option maxHeartbeats 800000 in
/-- The body at any point: the inputs' buffers hold their blocks; the point is the first or a later one; at a later one
    the output's buffer holds the running total so far; so that case's run applies, and what it leaves is `totalAt`. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2]
  rw [show (dats m 0 c).Φ t.succ = (dats m 0 c).Φ t.castSucc from rfl,
    show (dats m 0 c).owesAt () t.succ = (dats m 0 c).owesAt () t.castSucc from rfl]
  rw [show (dats m 0 c).leavesExact 0 t = owns (c : Thread nD τ) (ms0 t) fullShare (iblk m c 0 t) from by
      unfold Dat.leavesExact; rw [after0]]
  rw [show (dats m 0 c).leavesExact 1 t = owns (c : Thread nD τ) (ms1 t) fullShare (iblk m c 1 t) from by
      unfold Dat.leavesExact; rw [after1]]
  rw [show (dats m 0 c).leavesExact 2 t = owns (c : Thread nD τ) (ms2 t) fullShare (iblk m c 2 t) from by
      unfold Dat.leavesExact; rw [after2]]
  rw [show (dats m 0 c).leavesExact 3 t = owns (c : Thread nD τ) (ms3 t) fullShare (totalAt m c t.val t.isLt) from by
      unfold Dat.leavesExact; rw [live3 t, after3]]
  by_cases h0 : t.val = 0
  · rw [totalAt_first m c t h0]
    unfold outFirst
    iintro ⟨HΦ, Ho, ⟨%d0, H0⟩, ⟨%d1, H1⟩, ⟨%d2, H2⟩, ⟨%d3, H3⟩⟩
    iapply ((runFirst c (grid0.coords t) _ _ _ _ _ _ _ _ (first_of_zero t h0) (notLater_of_zero t h0) (iblk m c 0 t) (iblk m c 1 t) (iblk m c 2 t)).2 Set.univ _)
    isplitl [H0]; · iexact H0
    isplitl [H1]; · iexact H1
    isplitl [H2]; · iexact H2
    isplitl [H3]; · iexists _; iexact H3
    iintro ⟨H0, H1, H2, ⟨%e3, H3⟩⟩
    isplitl [HΦ]; · iexact HΦ
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (coverFirst c _ _ _ _ _ _ _ _ _ _ _ _ _ _)
  · rw [totalAt_later m c t h0]
    simp only [before3_later m c t h0]
    unfold outLater
    iintro ⟨HΦ, Ho, ⟨%d0, H0⟩, ⟨%d1, H1⟩, ⟨%d2, H2⟩, ⟨%d3, H3⟩⟩
    iapply ((runLater c (grid0.coords t) _ _ _ _ _ _ _ _ (notFirst_of_pos t h0) (later_of_pos t h0) (iblk m c 0 t) (iblk m c 1 t) (iblk m c 2 t) _).2 Set.univ _)
    isplitl [H0]; · iexact H0
    isplitl [H1]; · iexact H1
    isplitl [H2]; · iexact H2
    isplitl [H3]; · iexact H3
    iintro ⟨H0, H1, H2, ⟨%e3, H3⟩⟩
    isplitl [HΦ]; · iexact HΦ
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (coverLater c _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates; the call's arrays end at what the proof data computes — the
    output array at the block written back after the last point —, the host line after the call is applied to that, and
    every other buffer is as the call found it. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.Kernel.Body

end
-- ==== Proof.BodyIdeal.lean ====
/-
  The Coulomb kernel's body at a grid point, and the run of the whole call.

  A grid point `t` (of 8) owns rows `256 t … 256 t + 255` of the pair matrix.  The body reads its three input
  blocks — 256 rows of positions, all positions transposed, all charges —, forms ONE number, the sum of the pair
  energies over its 256 × 2048 entries, and keeps a running total in the 1 × 1 output block: the first point stores
  its number, every later point adds its number to what the point before left.  The block is written back once,
  after the last point.

  This module is stated for any float instance.  It has: the two conditions on the grid coordinate in closed form;
  the body's run in each of the two cases, the stores it leaves in the output block found by the run itself; what
  the output block holds after each point, by recursion on the point (`totalAt`); the pipeline's proof data over it;
  the body obligation; and the run of @main around the call.
-/
import proofs.«170483_g50903952392740_cont_sun_c4_305_3_alg».proof.Proof.Gen.KernelIdeal.Frame
import proofs.«170483_g50903952392740_cont_sun_c4_305_3_alg».proof.Proof.Gen.KernelIdeal.Skeleton

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The two conditions on the grid coordinate -/

/-- "This is the first point": the condition under which the body STORES its number. -/
abbrev atFirst (i : grid0.Coords) : Prop := k0_cond1 i = 1#1
/-- It holds at point 0 and nowhere else. -/
theorem atFirst_iff : ∀ t : Fin cfg0.N, atFirst (grid0.coords t) ↔ t.val = 0 :=
  (by decide +kernel : ∀ t : Fin grid0.N, atFirst (grid0.coords t) ↔ t.val = 0)

/-- "This is a later point": the condition under which the body ADDS its number to the running total. -/
abbrev atLater (i : grid0.Coords) : Prop := k0_cond2 i = 1#1
/-- It holds from point 1 on. -/
theorem atLater_iff : ∀ t : Fin cfg0.N, atLater (grid0.coords t) ↔ 1 ≤ t.val :=
  (by decide +kernel : ∀ t : Fin grid0.N, atLater (grid0.coords t) ↔ 1 ≤ t.val)

/-- One of the two stores happens at every point, so the output block is never left untouched. -/
theorem live3 : ∀ t : Fin cfg0.N, cfg0.idle 3 (grid0.coords t) = false :=
  (by decide +kernel : ∀ t : Fin grid0.N, cfg0.idle 3 (grid0.coords t) = false)
theorem live3_all : ∀ i : grid0.Coords, cfg0.idle 3 i = false := by decide +kernel

/-! ## The staging memrefs the body is called with -/

abbrev ms0 (t : Fin cfg0.N) : Memref sig .tc .vmem S256x3 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S3x2048 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x2048 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x1 .f32 := win0_3.stage (cfg0.slots t 3)
abbrev hs3 (t : Fin cfg0.N) : (ms3 t).IsWhole := hstage0_3 ((cfg0.slots t 3).cast nbuf0_3)

/-- The output block's one staging buffer, through which its contents are stated. -/
abbrev VO : View sig .tc .vmem S1x1 .f32 := (Memref.whole cc0_stg3_0 : Memref sig .tc .vmem S1x1 .f32).view

/-! ## The body's run, case by case -/

set_option maxHeartbeats 1000000 in
/-- AT THE FIRST POINT: with the inputs' buffers at `x0`, `x1`, `x2` and the output's at anything, the body runs and hands
    the inputs back as they were and the output with its stores (the list `L`, found by the run) written. -/
noncomputable def runFirst (c : Dev nD) (i : grid0.Coords) (arg1 : Memref sig .tc .vmem S256x3 .f32) (harg1 : arg1.IsWhole) (arg2 : Memref sig .tc .vmem S3x2048 .f32) (harg2 : arg2.IsWhole) (arg3 : Memref sig .tc .vmem S1x2048 .f32) (harg3 : arg3.IsWhole) (arg4 : Memref sig .tc .vmem S1x1 .f32) (harg4 : arg4.IsWhole) (hA : atFirst i) (hB : ¬atLater i)
    (x0 : Vec F S256x3 .f32) (x1 : Vec F S3x2048 .f32) (x2 : Vec F S1x2048 .f32) :
    { L : List (View.Piece (Elt F) S1x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d)
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L)) -∗ K ⟨⟩))
          ⊢ wp frame (wpE (defs₀ (F := F)) Variants.none c none) E (cc0__coulomb_body i arg1 harg1 arg2 harg2 arg3 harg3 arg4 harg4) K } := by
  refine ⟨?_, fun E K => ?run⟩
  case run =>
    simp only [cc0__coulomb_body_eq_skeleton]; unfold cc0__coulomb_body_skel
    simp only [k0_part1_eq_skeleton, k0_part2_eq_skeleton]
    unfold owns
    iintro ⟨⟨%f0, %hf0, H0⟩, ⟨%f1, %hf1, H1⟩, ⟨%f2, %hf2, H2⟩, ⟨%d3, %f3, -, H3⟩, Hk⟩
    obtain rfl := harg1.eq_unread hf0; obtain rfl := harg2.eq_unread hf1; obtain rfl := harg3.eq_unread hf2
    sl_exec (disch := first | exact hA | exact hB)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact H3

set_option maxHeartbeats 1000000 in
/-- AT A LATER POINT: the same, the output's buffer holding the running total `xo`, which the body reads. -/
noncomputable def runLater (c : Dev nD) (i : grid0.Coords) (arg1 : Memref sig .tc .vmem S256x3 .f32) (harg1 : arg1.IsWhole) (arg2 : Memref sig .tc .vmem S3x2048 .f32) (harg2 : arg2.IsWhole) (arg3 : Memref sig .tc .vmem S1x2048 .f32) (harg3 : arg3.IsWhole) (arg4 : Memref sig .tc .vmem S1x1 .f32) (harg4 : arg4.IsWhole) (hA : ¬atFirst i) (hB : atLater i)
    (x0 : Vec F S256x3 .f32) (x1 : Vec F S3x2048 .f32) (x2 : Vec F S1x2048 .f32) (xo : Vec F S1x1 .f32) :
    { L : List (View.Piece (Elt F) S1x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare xo
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L)) -∗ K ⟨⟩))
          ⊢ wp frame (wpE (defs₀ (F := F)) Variants.none c none) E (cc0__coulomb_body i arg1 harg1 arg2 harg2 arg3 harg3 arg4 harg4) K } := by
  refine ⟨?_, fun E K => ?run⟩
  case run =>
    simp only [cc0__coulomb_body_eq_skeleton]; unfold cc0__coulomb_body_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, Hk⟩
    obtain rfl := harg1.eq_unread hf0; obtain rfl := harg2.eq_unread hf1; obtain rfl := harg3.eq_unread hf2; obtain rfl := harg4.eq_unread hf3
    sl_exec (disch := first | exact hA | exact hB)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact H3

/-! ## What each case leaves in the output block -/

/-- The first point's stores cover the 1 × 1 block. -/
theorem coverFirst (c : Dev nD) (i : grid0.Coords) (arg1 : Memref sig .tc .vmem S256x3 .f32) (harg1 : arg1.IsWhole) (arg2 : Memref sig .tc .vmem S3x2048 .f32) (harg2 : arg2.IsWhole) (arg3 : Memref sig .tc .vmem S1x2048 .f32) (harg3 : arg3.IsWhole) (arg4 : Memref sig .tc .vmem S1x1 .f32) (harg4 : arg4.IsWhole) (hA : atFirst i) (hB : ¬atLater i)
    (x0 : Vec F S256x3 .f32) (x1 : Vec F S3x2048 .f32) (x2 : Vec F S1x2048 .f32) (y : S1x1.Idx) :
    ∃ pc ∈ (runFirst c i arg1 harg1 arg2 harg2 arg3 harg3 arg4 harg4 hA hB x0 x1 x2).1, y ∈ pc.1.set :=
  View.cover_of_tiledL (runFirst c i arg1 harg1 arg2 harg2 arg3 harg3 arg4 harg4 hA hB x0 x1 x2).1 S1x1.size (by sl_kernel_rfl) y

/-- What the first point leaves in the output block: its stores read back. -/
def outFirst (c : Dev nD) (i : grid0.Coords) (arg1 : Memref sig .tc .vmem S256x3 .f32) (harg1 : arg1.IsWhole) (arg2 : Memref sig .tc .vmem S3x2048 .f32) (harg2 : arg2.IsWhole) (arg3 : Memref sig .tc .vmem S1x2048 .f32) (harg3 : arg3.IsWhole) (arg4 : Memref sig .tc .vmem S1x1 .f32) (harg4 : arg4.IsWhole) (hA : atFirst i) (hB : ¬atLater i)
    (x0 : Vec F S256x3 .f32) (x1 : Vec F S3x2048 .f32) (x2 : Vec F S1x2048 .f32) : Vec F S1x1 .f32 :=
  VO.read (Elt F) (VO.writes (Elt F) VO.junk (runFirst c i arg1 harg1 arg2 harg2 arg3 harg3 arg4 harg4 hA hB x0 x1 x2).1)

/-- A later point's stores cover the 1 × 1 block. -/
theorem coverLater (c : Dev nD) (i : grid0.Coords) (arg1 : Memref sig .tc .vmem S256x3 .f32) (harg1 : arg1.IsWhole) (arg2 : Memref sig .tc .vmem S3x2048 .f32) (harg2 : arg2.IsWhole) (arg3 : Memref sig .tc .vmem S1x2048 .f32) (harg3 : arg3.IsWhole) (arg4 : Memref sig .tc .vmem S1x1 .f32) (harg4 : arg4.IsWhole) (hA : ¬atFirst i) (hB : atLater i)
    (x0 : Vec F S256x3 .f32) (x1 : Vec F S3x2048 .f32) (x2 : Vec F S1x2048 .f32) (xo : Vec F S1x1 .f32) (y : S1x1.Idx) :
    ∃ pc ∈ (runLater c i arg1 harg1 arg2 harg2 arg3 harg3 arg4 harg4 hA hB x0 x1 x2 xo).1, y ∈ pc.1.set :=
  View.cover_of_tiledL (runLater c i arg1 harg1 arg2 harg2 arg3 harg3 arg4 harg4 hA hB x0 x1 x2 xo).1 S1x1.size (by sl_kernel_rfl) y

/-- What a later point leaves in the output block, which held `xo`: its stores read back. -/
def outLater (c : Dev nD) (i : grid0.Coords) (arg1 : Memref sig .tc .vmem S256x3 .f32) (harg1 : arg1.IsWhole) (arg2 : Memref sig .tc .vmem S3x2048 .f32) (harg2 : arg2.IsWhole) (arg3 : Memref sig .tc .vmem S1x2048 .f32) (harg3 : arg3.IsWhole) (arg4 : Memref sig .tc .vmem S1x1 .f32) (harg4 : arg4.IsWhole) (hA : ¬atFirst i) (hB : atLater i)
    (x0 : Vec F S256x3 .f32) (x1 : Vec F S3x2048 .f32) (x2 : Vec F S1x2048 .f32) (xo : Vec F S1x1 .f32) : Vec F S1x1 .f32 :=
  VO.read (Elt F) (VO.writes (Elt F) VO.junk (runLater c i arg1 harg1 arg2 harg2 arg3 harg3 arg4 harg4 hA hB x0 x1 x2 xo).1)

/-! ## The running total, point by point -/

theorem first_of_zero (t : Fin cfg0.N) (h : t.val = 0) : atFirst (grid0.coords t) := (atFirst_iff t).mpr h
theorem notLater_of_zero (t : Fin cfg0.N) (h : t.val = 0) : ¬atLater (grid0.coords t) := fun hl => by
  have := (atLater_iff t).mp hl; omega
theorem notFirst_of_pos (t : Fin cfg0.N) (h : t.val ≠ 0) : ¬atFirst (grid0.coords t) := fun hf => h ((atFirst_iff t).mp hf)
theorem later_of_pos (t : Fin cfg0.N) (h : t.val ≠ 0) : atLater (grid0.coords t) := (atLater_iff t).mpr (Nat.one_le_iff_ne_zero.mpr h)

/-- What the output block holds after the body at point `n`: the first point's number, then each later point's
    number added to what the point before left (the block is not written back in between). -/
def totalAt (c : Dev nD) : (n : ℕ) → n < cfg0.N → Vec F S1x1 .f32
  | 0, hn => outFirst c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩)
      (first_of_zero ⟨0, hn⟩ rfl) (notLater_of_zero ⟨0, hn⟩ rfl) (iblk m c 0 ⟨0, hn⟩) (iblk m c 1 ⟨0, hn⟩) (iblk m c 2 ⟨0, hn⟩)
  | n + 1, hn => outLater c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩)
      (notFirst_of_pos ⟨n + 1, hn⟩ (Nat.succ_ne_zero n)) (later_of_pos ⟨n + 1, hn⟩ (Nat.succ_ne_zero n)) (iblk m c 0 ⟨n + 1, hn⟩) (iblk m c 1 ⟨n + 1, hn⟩) (iblk m c 2 ⟨n + 1, hn⟩)
      (totalAt c n (Nat.lt_of_succ_lt hn))

/-- `totalAt` at the first point. -/
theorem totalAt_first (c : Dev nD) (t : Fin cfg0.N) (h0 : t.val = 0) :
    totalAt m c t.val t.isLt = outFirst c (grid0.coords t) (ms0 t) (hs0 t) (ms1 t) (hs1 t) (ms2 t) (hs2 t) (ms3 t) (hs3 t)
      (first_of_zero t h0) (notLater_of_zero t h0) (iblk m c 0 t) (iblk m c 1 t) (iblk m c 2 t) := by
  obtain ⟨n, hn⟩ := t
  cases n with
  | zero => rfl
  | succ n => exact absurd h0 (Nat.succ_ne_zero n)

/-- `totalAt` at a later point: over what the point before left. -/
theorem totalAt_later (c : Dev nD) (t : Fin cfg0.N) (h0 : t.val ≠ 0) :
    totalAt m c t.val t.isLt = outLater c (grid0.coords t) (ms0 t) (hs0 t) (ms1 t) (hs1 t) (ms2 t) (hs2 t) (ms3 t) (hs3 t)
      (notFirst_of_pos t h0) (later_of_pos t h0) (iblk m c 0 t) (iblk m c 1 t) (iblk m c 2 t)
      (totalAt m c (t.val - 1) (Nat.lt_of_le_of_lt (Nat.sub_le _ _) t.isLt)) := by
  obtain ⟨n, hn⟩ := t
  cases n with
  | zero => exact absurd rfl h0
  | succ n => rfl

/-! ## The pipeline's proof data -/

/-- The arrays as the call finds them; after the body at point `t` each input's buffer at its block and the output's at
    the running total; the invariant the scoped rest; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (totalAt m c t.val t.isLt)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = totalAt m c t.val t.isLt := by dsimp only [dats]

/-- Each input's current staging buffer holds its block at every point, fetched there or not. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d

/-- At a later point the output's staging buffer holds what the body left at the point before: it was not written back
    in between (only the last point is), and the block is stored at every point. -/
theorem before3_later (c : Dev nD) (t : Fin cfg0.N) (h0 : t.val ≠ 0) (d) :
    (dats m 0 c).before 3 t d = totalAt m c (t.val - 1) (Nat.lt_of_le_of_lt (Nat.sub_le _ _) t.isLt) := by
  have hN : t.val < 8 := lt_of_lt_of_eq t.isLt (show cfg0.N = 8 from N_0)
  rw [Dat.before_out_kept _ 3 rfl t h0 (Bool.eq_false_iff.mpr fun h => by have := (flush0_3 _).mp h; dsimp only at this; omega)
    live3_all (fun _ _ => rfl)]
  dsimp only [dats]

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

set_option maxHeartbeats 800000 in
/-- The body at any point: the inputs' buffers hold their blocks; the point is the first or a later one; at a later one
    the output's buffer holds the running total so far; so that case's run applies, and what it leaves is `totalAt`. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2]
  rw [show (dats m 0 c).Φ t.succ = (dats m 0 c).Φ t.castSucc from rfl,
    show (dats m 0 c).owesAt () t.succ = (dats m 0 c).owesAt () t.castSucc from rfl]
  rw [show (dats m 0 c).leavesExact 0 t = owns (c : Thread nD τ) (ms0 t) fullShare (iblk m c 0 t) from by
      unfold Dat.leavesExact; rw [after0]]
  rw [show (dats m 0 c).leavesExact 1 t = owns (c : Thread nD τ) (ms1 t) fullShare (iblk m c 1 t) from by
      unfold Dat.leavesExact; rw [after1]]
  rw [show (dats m 0 c).leavesExact 2 t = owns (c : Thread nD τ) (ms2 t) fullShare (iblk m c 2 t) from by
      unfold Dat.leavesExact; rw [after2]]
  rw [show (dats m 0 c).leavesExact 3 t = owns (c : Thread nD τ) (ms3 t) fullShare (totalAt m c t.val t.isLt) from by
      unfold Dat.leavesExact; rw [live3 t, after3]]
  by_cases h0 : t.val = 0
  · rw [totalAt_first m c t h0]
    unfold outFirst
    iintro ⟨HΦ, Ho, ⟨%d0, H0⟩, ⟨%d1, H1⟩, ⟨%d2, H2⟩, ⟨%d3, H3⟩⟩
    iapply ((runFirst c (grid0.coords t) _ _ _ _ _ _ _ _ (first_of_zero t h0) (notLater_of_zero t h0) (iblk m c 0 t) (iblk m c 1 t) (iblk m c 2 t)).2 Set.univ _)
    isplitl [H0]; · iexact H0
    isplitl [H1]; · iexact H1
    isplitl [H2]; · iexact H2
    isplitl [H3]; · iexists _; iexact H3
    iintro ⟨H0, H1, H2, ⟨%e3, H3⟩⟩
    isplitl [HΦ]; · iexact HΦ
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (coverFirst c _ _ _ _ _ _ _ _ _ _ _ _ _ _)
  · rw [totalAt_later m c t h0]
    simp only [before3_later m c t h0]
    unfold outLater
    iintro ⟨HΦ, Ho, ⟨%d0, H0⟩, ⟨%d1, H1⟩, ⟨%d2, H2⟩, ⟨%d3, H3⟩⟩
    iapply ((runLater c (grid0.coords t) _ _ _ _ _ _ _ _ (notFirst_of_pos t h0) (later_of_pos t h0) (iblk m c 0 t) (iblk m c 1 t) (iblk m c 2 t) _).2 Set.univ _)
    isplitl [H0]; · iexact H0
    isplitl [H1]; · iexact H1
    isplitl [H2]; · iexact H2
    isplitl [H3]; · iexact H3
    iintro ⟨H0, H1, H2, ⟨%e3, H3⟩⟩
    isplitl [HΦ]; · iexact HΦ
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (coverLater c _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates; the call's arrays end at what the proof data computes — the
    output array at the block written back after the last point —, the host line after the call is applied to that, and
    every other buffer is as the call found it. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.KernelIdeal.Body

end
-- ==== Proof.Running.lean ====
/-
  What the Coulomb kernel's result holds.

  Each grid point's body leaves, in the 1 × 1 output block, ONE number — `blockNumber`, a function of the point and of
  its three input blocks — at the first point, and the block's previous contents plus that number at every later
  point.  So the block after point `n` holds the running sum of the numbers of points `0 … n` (`running`), the array
  written back after the last point holds the sum over all 8 points, and the result is that array recast to a
  scalar.
-/
import proofs.«170483_g50903952392740_cont_sun_c4_305_3_alg».proof.Proof.BodyIdeal
import Idealize.ShloMosaic.Lib.Pipeline.Value
import Idealize.ShloMosaic.Lib.Tactic

set_option maxRecDepth 16384

noncomputable section

namespace Cert.KernelIdeal.Running

open Cert.KernelIdeal Cert.KernelIdeal.Gen Cert.KernelIdeal.Body
open Idealize.ShloMosaic Idealize.ShloMosaic.TcCoe Idealize.ShloMosaic.Tactic
open Idealize.SL Idealize.SL.Sem
open Idealize.ShloMosaic.Pipeline (Dat)

variable {F : FTy → Type} [FloatOps F]
variable (m : (ℓ : Loc nD τ sig) → Buf (Elt F) ℓ) (ρ : Dev nD → PrngReg)

theorem hz : (![0, 0] : Fin 2 → Nat) = fun _ => 0 := funext fun a => by fin_cases a <;> rfl

/-- The number the body forms at grid point `i`: from column `k` of its 256 rows of positions and row `k` of the
    transposed positions (`k = 0, 1, 2`), the squared distances of the 256 × 2048 pairs; from the point's first row
    number the upper-triangle test; from the charges the prefactor; the masked energies summed to one number. -/
def blockNumber (i : grid0.Coords) (x0 : Vec F S256x3 .f32) (x1 : Vec F S3x2048 .f32) (x2 : Vec F S1x2048 .f32) : FVec F S1x1 .f32 :=
  k0_pay1
      (k0_pay10 (Scalar.muli (BitVec.ofNat 32 (i 0).val) 256#32)
        (k0_pay3 (View.ld x0 (Rect.unit ![0, 0] ![256, 1] inb_S256x3_S256x1_0_0))
          (View.ld x1 (Rect.unit ![0, 0] ![1, 2048] inb_S3x2048_S1x2048_0_0)))
        (k0_pay4 (View.ld x0 (Rect.unit ![0, 1] ![256, 1] inb_S256x3_S256x1_0_1))
          (View.ld x1 (Rect.unit ![1, 0] ![1, 2048] inb_S3x2048_S1x2048_1_0)))
        (k0_pay5 (View.ld x0 (Rect.unit ![0, 1] ![256, 1] inb_S256x3_S256x1_0_1))
          (View.ld x1 (Rect.unit ![1, 0] ![1, 2048] inb_S3x2048_S1x2048_1_0)))
        (k0_pay6 (View.ld x0 (Rect.unit ![0, 1] ![256, 1] inb_S256x3_S256x1_0_1))
          (View.ld x1 (Rect.unit ![1, 0] ![1, 2048] inb_S3x2048_S1x2048_1_0)))
        k0_pay7 k0_pay8 (View.ld x0 (Rect.unit ![0, 2] ![256, 1] inb_S256x3_S256x1_0_2))
        (View.ld x1 (Rect.unit ![2, 0] ![1, 2048] inb_S3x2048_S1x2048_2_0)))
      (k0_pay11 (Scalar.muli (BitVec.ofNat 32 (i 0).val) 256#32)
        (k0_pay3 (View.ld x0 (Rect.unit ![0, 0] ![256, 1] inb_S256x3_S256x1_0_0))
          (View.ld x1 (Rect.unit ![0, 0] ![1, 2048] inb_S3x2048_S1x2048_0_0)))
        (k0_pay4 (View.ld x0 (Rect.unit ![0, 1] ![256, 1] inb_S256x3_S256x1_0_1))
          (View.ld x1 (Rect.unit ![1, 0] ![1, 2048] inb_S3x2048_S1x2048_1_0)))
        (k0_pay5 (View.ld x0 (Rect.unit ![0, 1] ![256, 1] inb_S256x3_S256x1_0_1))
          (View.ld x1 (Rect.unit ![1, 0] ![1, 2048] inb_S3x2048_S1x2048_1_0)))
        (k0_pay6 (View.ld x0 (Rect.unit ![0, 1] ![256, 1] inb_S256x3_S256x1_0_1))
          (View.ld x1 (Rect.unit ![1, 0] ![1, 2048] inb_S3x2048_S1x2048_1_0)))
        k0_pay7 k0_pay8 (View.ld x0 (Rect.unit ![0, 2] ![256, 1] inb_S256x3_S256x1_0_2))
        (View.ld x1 (Rect.unit ![2, 0] ![1, 2048] inb_S3x2048_S1x2048_2_0)))
      (k0_pay12 (View.ld x2 (Rect.unit ![0, 0] ![1, 2048] inb_S1x2048_S1x2048_0_0)))

/-- THE FIRST POINT leaves its number: its one store covers the block, and its payload's loads read the buffers. -/
theorem outFirst_eq (c : Dev nD) (i : grid0.Coords) (arg1 : Memref sig .tc .vmem S256x3 .f32) (harg1 : arg1.IsWhole) (arg2 : Memref sig .tc .vmem S3x2048 .f32) (harg2 : arg2.IsWhole) (arg3 : Memref sig .tc .vmem S1x2048 .f32) (harg3 : arg3.IsWhole) (arg4 : Memref sig .tc .vmem S1x1 .f32) (harg4 : arg4.IsWhole) (hA : atFirst i) (hB : ¬atLater i)
    (x0 : Vec F S256x3 .f32) (x1 : Vec F S3x2048 .f32) (x2 : Vec F S1x2048 .f32) :
    outFirst c i arg1 harg1 arg2 harg2 arg3 harg3 arg4 harg4 hA hB x0 x1 x2 = blockNumber i x0 x1 x2 := by
  unfold outFirst
  rw [View.read_writes_eq_canon _ _ _ (coverFirst c i arg1 harg1 arg2 harg2 arg3 harg3 arg4 harg4 hA hB x0 x1 x2)]
  unfold runFirst
  dsimp only
  sl_unfold_words
  rw [View.canon_unit_zero hz]
  simp only [View.readAt_eq_ld, harg1.read_unread, harg2.read_unread, harg3.read_unread]
  rfl

/-- A LATER POINT leaves what the block held plus its number. -/
theorem outLater_eq (c : Dev nD) (i : grid0.Coords) (arg1 : Memref sig .tc .vmem S256x3 .f32) (harg1 : arg1.IsWhole) (arg2 : Memref sig .tc .vmem S3x2048 .f32) (harg2 : arg2.IsWhole) (arg3 : Memref sig .tc .vmem S1x2048 .f32) (harg3 : arg3.IsWhole) (arg4 : Memref sig .tc .vmem S1x1 .f32) (harg4 : arg4.IsWhole) (hA : ¬atFirst i) (hB : atLater i)
    (x0 : Vec F S256x3 .f32) (x1 : Vec F S3x2048 .f32) (x2 : Vec F S1x2048 .f32) (xo : Vec F S1x1 .f32) :
    outLater c i arg1 harg1 arg2 harg2 arg3 harg3 arg4 harg4 hA hB x0 x1 x2 xo = addf xo (blockNumber i x0 x1 x2) := by
  unfold outLater
  rw [View.read_writes_eq_canon _ _ _ (coverLater c i arg1 harg1 arg2 harg2 arg3 harg3 arg4 harg4 hA hB x0 x1 x2 xo)]
  unfold runLater
  dsimp only
  sl_unfold_words
  rw [View.canon_unit_zero hz]
  simp only [View.readAt_eq_ld, harg1.read_unread, harg2.read_unread, harg3.read_unread, harg4.read_unread]
  unfold k0_pay2
  simp only [View.ld_unit_zero (S := S1x1) hz, shapeCast_self]
  rfl

/-- The running sum after point `n`: the first point's number, then `+` each later point's. -/
def running (c : Dev nD) : (n : ℕ) → n < cfg0.N → Vec F S1x1 .f32
  | 0, h => blockNumber (grid0.coords ⟨0, h⟩) (iblk m c 0 ⟨0, h⟩) (iblk m c 1 ⟨0, h⟩) (iblk m c 2 ⟨0, h⟩)
  | n + 1, h => addf (running c n (Nat.lt_of_succ_lt h))
      (blockNumber (grid0.coords ⟨n + 1, h⟩) (iblk m c 0 ⟨n + 1, h⟩) (iblk m c 1 ⟨n + 1, h⟩) (iblk m c 2 ⟨n + 1, h⟩))

/-- What the output block holds after point `n` is the running sum — by induction on the point. -/
theorem totalAt_eq (c : Dev nD) : ∀ (n : ℕ) (h : n < cfg0.N), totalAt m c n h = running m c n h
  | 0, h => (totalAt_first m c ⟨0, h⟩ rfl).trans (outFirst_eq ..)
  | n + 1, h => by
    rw [totalAt_later m c ⟨n + 1, h⟩ (Nat.succ_ne_zero n), outLater_eq]
    show addf (totalAt m c n _) _ = addf (running m c n _) _
    rw [totalAt_eq c n]

/-- The last point. -/
abbrev tLast : Fin cfg0.N := t0_7

/-- The output array's final contents: the running sum after the last point (the one block IS the array). -/
abbrev finalBlock (c : Dev nD) : Buf (Elt F) ((c : Thread nD τ).loc main_v2) :=
  running m c 7 (by rw [show cfg0.N = 8 from N_0]; decide)

/-- The one write-back, after point 7, writes it. -/
theorem flushed_eq (c : Dev nD) (t : Fin cfg0.N) (hf : (cfg0.win 3).flush t = true) :
    (dats m 0 c).flushed 3 t = ((cfg0.win 3).blk t).view.read (Elt F) (finalBlock m c) := by
  have hN : cfg0.N = 8 := N_0
  have h7 : t.val = 7 := by have := (flush0_3 t).mp hf; have := t.isLt; omega
  obtain rfl : t = t0_7 := Fin.ext h7
  show (cfg0.win 3).cut (grid0.coords t0_7) ((dats m 0 c).after 3 t0_7) = _
  rw [after3, totalAt_eq]
  have hz' : (fun a => win0_3.index t0_7 a * main_v2.ty.shape.size a) = fun _ => 0 := funext fun a => by fin_cases a <;> decide
  exact (Memref.read_access_unit_zero (Elt F) main_v2 hz' (fun a => by rw [congrFun hz' a]; simp) (finalBlock m c)).symm

/-- So the output array ends holding the running sum after the last point. -/
theorem final_out (c : Dev nD) : (dats m 0 c).arrAt 3 cfg0.N = finalBlock m c :=
  (dats m 0 c).arrAt_eq_of_cover 3 (finalBlock m c) (flushed_eq m c) fun i =>
    ⟨t0_7, (flush0_3 t0_7).mpr rfl, by
      show i ∈ ((View.whole main_v2).slice (win0_3.rect t0_7)).set
      rw [View.set_slice_whole, Rect.mem_set_unit]
      intro a
      have h0 : (i 0 : Nat) < 1 := (i 0).isLt
      have h1 : (i 1 : Nat) < 1 := (i 1).isLt
      match a with
      | ⟨0, _⟩ => show win0_3.index t0_7 0 * win0_3.size 0 ≤ (i 0 : Nat) ∧ (i 0 : Nat) < win0_3.index t0_7 0 * win0_3.size 0 + win0_3.xsize (grid0.coords t0_7) 0
                  rw [show win0_3.index t0_7 0 * win0_3.size 0 = 0 from by decide +kernel, show win0_3.xsize (grid0.coords t0_7) 0 = 1 from by decide +kernel]; omega
      | ⟨1, _⟩ => show win0_3.index t0_7 1 * win0_3.size 1 ≤ (i 1 : Nat) ∧ (i 1 : Nat) < win0_3.index t0_7 1 * win0_3.size 1 + win0_3.xsize (grid0.coords t0_7) 1
                  rw [show win0_3.index t0_7 1 * win0_3.size 1 = 0 from by decide +kernel, show win0_3.xsize (grid0.coords t0_7) 1 = 1 from by decide +kernel]; omega⟩

/-- The scalar result: the output array recast `[1,1] → []`. -/
def result (c : Dev nD) : Buf (Elt F) ((c : Thread nD τ).loc main_v3) :=
  shapeCast S_ (finalBlock m c) shapeCasts_S1x1_S_

/-- The host line after the call, applied to the call's final arrays, leaves the recast of the output array. -/
theorem tail_eq (c : Dev nD) :
    Pipeline.afterTail₀ cfgs (dats m) 0 (V0 m) [hostOps1] c main_v3 = result m c := by
  unfold Pipeline.afterTail₀
  show StableHlo.after hostOps1 _ (Proc.devRef .tc main_v3) = _
  after_results
  unfold result
  exact congrArg (fun z => shapeCast S_ z shapeCasts_S1x1_S_)
    ((Pipeline.withArrays_arr spec0 launch0.win.arr_inj c _ _ 3).trans (final_out m c))

/-- The run, read: the result at `result`, the arguments unchanged. -/
theorem run : θ_run defs (onTc (τ := τ) (main (F := F))) ⟨m, fun _ => 0, ρ⟩ fun r => ∀ c : Dev nD,
      r.2.mem ((c.tc : Thread nD τ).loc main_v3) = result m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨((h c).2 main_v3 (Pipeline.mem_restRefs_of main_v3 (by decide) (by decide))).trans (tail_eq m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c)⟩)
    (run_main m ρ)

end Cert.KernelIdeal.Running

end
-- ==== Proof.PairEnergy.lean ====
/-
  The pair energy of the periodic Coulomb sum, on the extended reals.

  For positions `x` (2048 × 3) in a cubic box of side 24 and charges `q`, atom pair `(i, j)` has the coordinate
  differences `d_k = x[j,k] − x[i,k]`, each moved into the box's central cell (`+24` below `−12`, `−24` from `12` on), the
  squared distance `s = Σ_k d_k²`, and contributes `−C · q[j]² / √s` when `s < 6.25`, `s ≠ 0` and `i < j`, nothing
  otherwise.  The total is the sum over all pairs.

  Two spellings of every step are compared here, entry by entry, with no assumption on the numbers (all of it
  holds on the whole extended real line):
  * the shift as a difference of two selections against the shift as `(−[d ≥ ½·24] + [d < −½·24]) · 24`
    (the four cases of the two bits; `½ · 24 = 12` exactly);
  * the squared distance summed left to right from zero against zero plus the sum over the three coordinates;
  * the upper-triangle test `j > i` against "not `i ≥ j`", on 32-bit words;
  * `a · rsqrt s` against `a / √s`: where the pair counts, `s` is a sum of squares that is neither zero nor
    infinite, so a positive real, and both are `a · (√s)⁻¹`.
-/
import Mathlib.Data.EReal.Inv
import Mathlib.Algebra.BigOperators.Fin
import Idealize.ShloMosaic.PureOps.Ideal
import Idealize.ShloMosaic.PureOps.Ideal.Laws
import Idealize.ShloMosaic.Lib.ValueIdx

noncomputable section

open scoped BigOperators

namespace Cert.PairEnergy

open Idealize.ShloMosaic Idealize.ShloMosaic.ValueIdx

/-! ## The literals -/

theorem lit_24 : Ideal.ofBits .f32 0x41C00000#32 = ((24 : ℝ) : EReal) := by
  simp [Ideal.ofBits, Ideal.ieee, -EReal.coe_mul]; norm_num
theorem lit_12 : Ideal.ofBits .f32 0x41400000#32 = ((12 : ℝ) : EReal) := by
  simp [Ideal.ofBits, Ideal.ieee, -EReal.coe_mul]; norm_num
theorem lit_neg12 : Ideal.ofBits .f32 0xC1400000#32 = ((-12 : ℝ) : EReal) := by
  simp [Ideal.ofBits, Ideal.ieee, -EReal.coe_mul]; norm_num
theorem lit_half : Ideal.ofBits .f32 0x3F000000#32 = (((1 : ℝ) / 2 : ℝ) : EReal) := by
  simp [Ideal.ofBits, Ideal.ieee, -EReal.coe_mul]; norm_num
theorem lit_neghalf : Ideal.ofBits .f32 0xBF000000#32 = ((-((1 : ℝ) / 2) : ℝ) : EReal) := by
  simp [Ideal.ofBits, Ideal.ieee, -EReal.coe_mul]; norm_num
theorem lit_zero : Ideal.ofBits .f32 0x00000000#32 = 0 := Ideal.ofBits_zero_f32

/-- `½ · 24 = 12`. -/
theorem half_box : Ideal.ofBits .f32 0x3F000000#32 * Ideal.ofBits .f32 0x41C00000#32 = Ideal.ofBits .f32 0x41400000#32 := by
  rw [lit_half, lit_24, lit_12, ← EReal.coe_mul]; norm_num
/-- `−½ · 24 = −12`. -/
theorem neg_half_box : Ideal.ofBits .f32 0xBF000000#32 * Ideal.ofBits .f32 0x41C00000#32 = Ideal.ofBits .f32 0xC1400000#32 := by
  rw [lit_neghalf, lit_24, lit_neg12, ← EReal.coe_mul]; norm_num

/-! ## The shift into the central cell -/

/-- The shift of one coordinate difference `d`: `24` if `d < −12`, less `24` if `d ≥ 12`. -/
def shift (d : EReal) : EReal :=
  Scalar.select (Ideal.cmp .olt d (Ideal.ofBits .f32 0xC1400000#32)) (Ideal.ofBits .f32 0x41C00000#32) (Ideal.ofBits .f32 0x00000000#32)
    - Scalar.select (Ideal.cmp .oge d (Ideal.ofBits .f32 0x41400000#32)) (Ideal.ofBits .f32 0x41C00000#32) (Ideal.ofBits .f32 0x00000000#32)

/-- A bit, read as a number, is `1` or `0`. -/
theorem bit_cases (b : BitVec 1) : b = 1#1 ∨ b = 0#1 := by revert b; decide

/-- The shift spelt with the two bits read as numbers: `(−[d ≥ ½·24] + [d < −½·24]) · 24`. -/
theorem shift_bits (d : EReal) :
    (-(((Ideal.cmp .oge d (Ideal.ofBits .f32 0x3F000000#32 * Ideal.ofBits .f32 0x41C00000#32)).toNat : ℝ) : EReal)
        + (((Ideal.cmp .olt d (Ideal.ofBits .f32 0xBF000000#32 * Ideal.ofBits .f32 0x41C00000#32)).toNat : ℝ) : EReal))
      * Ideal.ofBits .f32 0x41C00000#32 = shift d := by
  unfold shift
  rw [half_box, neg_half_box, lit_24, lit_zero]
  have L : ∀ g l : ℕ, (-((g : ℝ) : EReal) + ((l : ℝ) : EReal)) * ((24 : ℝ) : EReal) = (((-(g : ℝ) + (l : ℝ)) * 24 : ℝ) : EReal) := fun g l => by
    rw [← EReal.coe_neg, ← EReal.coe_add, ← EReal.coe_mul]
  rcases bit_cases (Ideal.cmp .oge d (Ideal.ofBits .f32 0x41400000#32)) with hg | hg <;>
  rcases bit_cases (Ideal.cmp .olt d (Ideal.ofBits .f32 0xC1400000#32)) with hl | hl <;>
  rw [hg, hl, L] <;>
  simp only [select_one, select_zero] <;>
  first
    | (rw [← EReal.coe_sub]; congr 1; norm_num)
    | (rw [zero_sub, ← EReal.coe_neg]; congr 1; norm_num)
    | (rw [sub_zero]; congr 1; norm_num)
    | (rw [sub_zero, ← EReal.coe_zero]; congr 1; norm_num)

/-- A coordinate difference moved into the central cell. -/
def wrapped (d : EReal) : EReal := d + shift d

/-! ## The squared distance -/

/-- The squared distance from the three wrapped differences, summed left to right from zero. -/
def sq3 (w0 w1 w2 : EReal) : EReal :=
  ((Ideal.ofBits .f32 0x00000000#32 + w0 * w0) + w1 * w1) + w2 * w2

/-- The same as zero plus the sum over the three coordinates. -/
theorem sq3_sum (w : Fin 3 → EReal) :
    Ideal.ofBits .f32 0x00000000#32 + ∑ k : Fin 3, w k * w k = sq3 (w 0) (w 1) (w 2) := by
  unfold sq3
  rw [Fin.sum_univ_three, add_assoc, add_assoc, add_assoc]

theorem mul_self_nonneg' (w : EReal) : 0 ≤ w * w := by
  rcases le_total 0 w with h | h
  · exact EReal.mul_nonneg h h
  · exact EReal.mul_nonneg_iff.mpr (.inr ⟨h, h⟩)

/-- A squared distance is not negative. -/
theorem sq3_nonneg (w0 w1 w2 : EReal) : 0 ≤ sq3 w0 w1 w2 := by
  unfold sq3
  rw [lit_zero, zero_add]
  exact add_nonneg (add_nonneg (mul_self_nonneg' w0) (mul_self_nonneg' w1)) (mul_self_nonneg' w2)

/-! ## Which pairs count -/

/-- "Within the cutoff and not the same place": `s < 6.25` and `s ≠ 0`, as one bit. -/
def inRange (s : EReal) : BitVec 1 :=
  IntOp.andi (Ideal.cmp .olt s (Ideal.ofBits .f32 0x40C80000#32)) (Ideal.cmp .one s (Ideal.ofBits .f32 0x00000000#32))

/-- The not-equal test spelt "unordered or not equal" is the same bit: nothing is unordered. -/
theorem inRange_une (s : EReal) :
    IntOp.andi (Ideal.cmp .olt s (Ideal.ofBits .f32 0x40C80000#32)) (Ideal.cmp .une s (Ideal.ofBits .f32 0x00000000#32)) = inRange s := rfl

theorem andi_one {c d : BitVec 1} : IntOp.andi c d = 1#1 ↔ c = 1#1 ∧ d = 1#1 := by revert c d; decide

/-- Where a pair counts, its squared distance (a nonnegative number) is positive and finite. -/
theorem pos_of_inRange {s : EReal} (h0 : 0 ≤ s) {T : BitVec 1} (h : IntOp.andi (inRange s) T = 1#1) : 0 < s ∧ s ≠ ⊤ := by
  obtain ⟨hr, -⟩ := andi_one.mp h
  obtain ⟨hlt, hne⟩ := andi_one.mp hr
  have h1 : s < Ideal.ofBits .f32 0x40C80000#32 := by
    by_contra hc
    simp [Ideal.cmp, hc] at hlt
  have h2 : s ≠ 0 := by
    intro hc
    simp [Ideal.cmp, hc, lit_zero] at hne
  exact ⟨lt_of_le_of_ne h0 (Ne.symm h2), ne_top_of_lt h1⟩

/-- The upper-triangle bit `j > i` on signed 32-bit words. -/
def above (i j : BitVec 32) : BitVec 1 := IntOp.cmpi .sgt j i

/-- "Keep unless `i ≥ j`" is the same bit. -/
theorem above_select (i j : BitVec 32) : Scalar.select (IntOp.cmpi .sge i j) 0#1 1#1 = above i j := by
  unfold above IntOp.cmpi Scalar.select
  dsimp only
  have key : i.slt j = !(j.sle i) := by
    rw [BitVec.slt, BitVec.sle, ← decide_not]; exact decide_eq_decide.mpr (by omega)
  rw [key]; cases j.sle i <;> first | rfl | simp

/-- Row `256 t + p` as a word: the block's first row (`t · 256`) added to the row inside the block. -/
theorem row_word (t p : ℕ) : IntOp.addi (BitVec.ofNat 32 p) (Scalar.muli (BitVec.ofNat 32 t) 256#32) = BitVec.ofNat 32 (t * 256 + p) := by
  unfold IntOp.addi Scalar.muli IntOp.muli
  apply BitVec.eq_of_toNat_eq
  simp only [BitVec.toNat_add, BitVec.toNat_mul, BitVec.toNat_ofNat]
  omega

/-- Adding the zero word changes nothing. -/
theorem add_zero_word (i : BitVec 32) : IntOp.addi i 0#32 = i := by
  unfold IntOp.addi; simp

/-! ## One pair's term -/

/-- A pair's term from its bit `M`, the squared charge `qq` and the squared distance `s`: `(−C · qq) · rsqrt s` where
    the pair counts, `0` elsewhere (the square root's argument replaced by `1` where it does not count). -/
def term (M : BitVec 1) (qq s : EReal) : EReal :=
  Scalar.select M
    ((Ideal.ofBits .f32 0xC16667C5#32 * qq) * Ideal.rsqrt (Scalar.select M s (Ideal.ofBits .f32 0x3F800000#32)))
    (Ideal.ofBits .f32 0x00000000#32)

/-- The same with a quotient by the square root, where counted pairs have a positive finite `s`. -/
theorem term_div (M : BitVec 1) (qq s : EReal) (hs : M = 1#1 → 0 < s ∧ s ≠ ⊤) :
    Scalar.select M
      (Ideal.div (Ideal.ofBits .f32 0xC16667C5#32 * qq) (Ideal.sqrt (Scalar.select M s (Ideal.ofBits .f32 0x3F800000#32))))
      (Ideal.ofBits .f32 0x00000000#32) = term M qq s := by
  unfold term
  rcases bit_cases M with hM | hM
  · subst hM
    obtain ⟨hpos, htop⟩ := hs rfl
    simp only [select_one]
    lift s to ℝ using ⟨htop, ne_bot_of_gt hpos⟩
    have hr : (0 : ℝ) < s := by exact_mod_cast hpos
    have hsq : Real.sqrt s ≠ 0 := (Real.sqrt_pos.mpr hr).ne'
    have e1 : Ideal.rsqrt (s : EReal) = (((Real.sqrt s)⁻¹ : ℝ) : EReal) := by
      show (if s < 0 then ⊥ else if s = 0 then ⊤ else (((Real.sqrt s)⁻¹ : ℝ) : EReal)) = _
      rw [if_neg (not_lt.mpr hr.le), if_neg hr.ne']
    have e2 : Ideal.sqrt (s : EReal) = ((Real.sqrt s : ℝ) : EReal) := by
      show (if s < 0 then ⊥ else ((Real.sqrt s : ℝ) : EReal)) = _
      rw [if_neg (not_lt.mpr hr.le)]
    rw [e1, e2]
    unfold Ideal.div
    rw [if_neg (by exact_mod_cast hsq), EReal.coe_inv]
  · subst hM
    simp only [select_zero]

/-! ## The specification: the sum over all pairs -/

section Spec

variable (x : (⟨2, ![2048, 3]⟩ : Shape).Idx → EReal) (q : (⟨1, ![2048]⟩ : Shape).Idx → EReal)

/-- Pair `(i, j)`'s difference on coordinate `k`. -/
def dif (i j : Fin 2048) (k : Fin 3) : EReal := x (ix2 j k) - x (ix2 i k)

/-- Pair `(i, j)`'s squared distance. -/
def sqOf (i j : Fin 2048) : EReal :=
  sq3 (wrapped (dif x i j 0)) (wrapped (dif x i j 1)) (wrapped (dif x i j 2))

/-- Whether pair `(i, j)` counts. -/
def countOf (i j : Fin 2048) : BitVec 1 :=
  IntOp.andi (inRange (sqOf x i j)) (above (BitVec.ofNat 32 i.val) (BitVec.ofNat 32 j.val))

/-- Pair `(i, j)`'s term. -/
def energy (i j : Fin 2048) : EReal :=
  term (countOf x i j) (q (ix1 j) * q (ix1 j)) (sqOf x i j)

/-- The total: the sum of the terms over all pairs. -/
def total : EReal := ∑ i : Fin 2048, ∑ j : Fin 2048, energy x q i j

end Spec

end Cert.PairEnergy

end
-- ==== Proof.LibIdxSums.lean ====
/-
  Sums over an index set written by coordinates, a sum over `Fin (T * n)` written by blocks of `n`, and a running
  total written as a finite sum. General facts over any additive commutative monoid.
-/
import Mathlib.Algebra.BigOperators.Fin
import Mathlib.Logic.Equiv.Fin.Basic
import Idealize.ShloMosaic.Lib.ValueIdx

open scoped BigOperators

namespace Cert.LibIdxSums

open Idealize.ShloMosaic Idealize.ShloMosaic.ValueIdx

variable {M : Type*} [AddCommMonoid M]

/-! ## Sums over rank-3 and rank-4 index sets, by coordinates -/

/-- A rank-3 index set is the product of its three coordinate ranges. -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- A sum over a rank-3 index set is the triple sum over the coordinates. -/
theorem sum_idx3 {n0 n1 n2 : Nat} (f : (⟨3, ![n0, n1, n2]⟩ : Shape).Idx → M) :
    ∑ j, f j = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- A rank-4 index set is the product of its four coordinate ranges. -/
def idxEquiv4 {n0 n1 n2 n3 : Nat} : (⟨4, ![n0, n1, n2, n3]⟩ : Shape).Idx ≃ Fin n0 × Fin n1 × Fin n2 × Fin n3 where
  toFun i := (i 0, i 1, i 2, i 3)
  invFun p := ix4 p.1 p.2.1 p.2.2.1 p.2.2.2
  left_inv i := (eq_ix4 i).symm
  right_inv _ := rfl

/-- A sum over a rank-4 index set is the fourfold sum over the coordinates. -/
theorem sum_idx4 {n0 n1 n2 n3 : Nat} (f : (⟨4, ![n0, n1, n2, n3]⟩ : Shape).Idx → M) :
    ∑ j, f j = ∑ a : Fin n0, ∑ b : Fin n1, ∑ c : Fin n2, ∑ d : Fin n3, f (ix4 a b c d) := by
  rw [← Equiv.sum_comp (idxEquiv4 (n0 := n0) (n1 := n1) (n2 := n2) (n3 := n3)).symm f, Fintype.sum_prod_type]
  refine Finset.sum_congr rfl fun a _ => ?_
  rw [Fintype.sum_prod_type]
  refine Finset.sum_congr rfl fun b _ => ?_
  rw [Fintype.sum_prod_type]
  rfl

/-! ## A sum over `Fin (T * n)` by `T` blocks of `n` -/

/-- Entry `b` of block `t` lies below `T * n`. -/
theorem block_lt {T n : ℕ} (t : Fin T) (b : Fin n) : t.val * n + b.val < T * n := by
  have ht := t.isLt
  have hb := b.isLt
  calc t.val * n + b.val < t.val * n + n := by omega
    _ = (t.val + 1) * n := by ring
    _ ≤ T * n := Nat.mul_le_mul_right n ht

/-- A sum over `Fin (T * n)` is the sum over the `T` blocks of the sums over each block's `n` entries:
    `∑_B h B = ∑_t ∑_b h (t·n + b)`. -/
theorem sum_fin_blocks (T n : ℕ) (h : Fin (T * n) → M) :
    ∑ B : Fin (T * n), h B = ∑ t : Fin T, ∑ b : Fin n, h ⟨t.val * n + b.val, block_lt t b⟩ := by
  rw [← Equiv.sum_comp (finProdFinEquiv (m := T) (n := n)) h, Fintype.sum_prod_type]
  refine Finset.sum_congr rfl fun t _ => Finset.sum_congr rfl fun b _ => ?_
  refine congrArg h (Fin.ext ?_)
  show b.val + n * t.val = t.val * n + b.val
  rw [Nat.mul_comm, Nat.add_comm]

/-- 256 entries as 128 blocks of 2: `∑_B h B = ∑_{t<128} ∑_{b<2} h (2t + b)`. -/
theorem sum_fin256_blocks2 (h : Fin 256 → M) :
    ∑ B, h B = ∑ t : Fin 128, ∑ b : Fin 2, h ⟨2 * t.val + b.val, by omega⟩ := by
  refine (sum_fin_blocks 128 2 h).trans ?_
  refine Finset.sum_congr rfl fun t _ => Finset.sum_congr rfl fun b _ => ?_
  exact congrArg h (Fin.ext (by show t.val * 2 + b.val = 2 * t.val + b.val; omega))

/-- 256 entries as 8 blocks of 32: `∑_B h B = ∑_{t<8} ∑_{b<32} h (32t + b)`. -/
theorem sum_fin256_blocks32 (h : Fin 256 → M) :
    ∑ B, h B = ∑ t : Fin 8, ∑ b : Fin 32, h ⟨32 * t.val + b.val, by omega⟩ := by
  refine (sum_fin_blocks 8 32 h).trans ?_
  refine Finset.sum_congr rfl fun t _ => Finset.sum_congr rfl fun b _ => ?_
  exact congrArg h (Fin.ext (by show t.val * 32 + b.val = 32 * t.val + b.val; omega))

/-! ## A running total is a finite sum -/

/-- A sequence that starts at `z + a 0` and adds `a (n + 1)` at step `n + 1` is `z` plus the partial sums of `a`:
    `A n = z + ∑_{t ≤ n} a t`. -/
theorem chain_eq_sum (A a : ℕ → M) (z : M) (h0 : A 0 = z + a 0) (hs : ∀ n, A (n + 1) = A n + a (n + 1)) :
    ∀ n, A n = z + ∑ t ∈ Finset.range (n + 1), a t := by
  intro n
  induction n with
  | zero => rw [h0, Finset.sum_range_one]
  | succ k ih => rw [hs, ih, Finset.sum_range_succ a (k + 1), add_assoc]

/-- A sum over the naturals below `N` is the sum over `Fin N` of the values. -/
theorem sum_range_eq_sum_fin (N : ℕ) (a : ℕ → M) : ∑ t ∈ Finset.range N, a t = ∑ t : Fin N, a t.val :=
  Finset.sum_range a

end Cert.LibIdxSums
-- ==== Proof.BlockSum.lean ====
/-
  A grid point's number, read on the extended reals.

  The body's number at a grid point is the sum, over the 256 × 2048 pairs (row `p` of the block, atom `q`), of the pair
  term: with `d_k = xT[k, q] − xrows[p, k]` wrapped into the central cell and `s` the sum of their squares, the term
  `(−C · qrow[q]²) · rsqrt s` where `s < 6.25`, `s ≠ 0` and `q` is above the pair's global row `p + 256 · (point)`.
  Every operation of the body but four acts entry by entry; the four are read once each: a column of the rows block and
  a row of the transposed block spread over the 256 × 2048 plane, the two coordinate counters, and the final sum.
-/
import proofs.«170483_g50903952392740_cont_sun_c4_305_3_alg».proof.Proof.Running
import proofs.«170483_g50903952392740_cont_sun_c4_305_3_alg».proof.Proof.PairEnergy
import proofs.«170483_g50903952392740_cont_sun_c4_305_3_alg».proof.Proof.LibIdxSums
import Idealize.ShloMosaic.Lib.ValueLayout
import Idealize.ShloMosaic.PureOps.Ideal.Laws

set_option maxRecDepth 16384

noncomputable section

open scoped BigOperators

namespace Cert.KernelIdeal.BlockSum

open Cert.KernelIdeal Cert.KernelIdeal.Gen Cert.KernelIdeal.Running
open Idealize.ShloMosaic Idealize.ShloMosaic.ValueIdx Cert.PairEnergy

/-! ## The four operations that are not entry by entry -/

/-- A `[1, 2048]` row spread over the plane reads the row at the column. -/
theorem spreadRow {α : Type} (v : S1x2048.Idx → α) :
    broadcastTo S256x2048 v broadcasts_S1x2048_S256x2048 = fun i => v (ix2 (0 : Fin 1) (i 1)) := by
  funext i
  obtain ⟨p, q, rfl⟩ : ∃ (p : Fin 256) (q : Fin 2048), i = ix2 p q := ⟨i 0, i 1, eq_ix2 i⟩
  exact broadcastTo_1b_ab_apply v broadcasts_S1x2048_S256x2048 p q

/-- A `[256, 1]` column spread over the plane reads the column at the row. -/
theorem spreadCol {α : Type} (v : S256x1.Idx → α) :
    broadcastTo S256x2048 v broadcasts_S256x1_S256x2048 = fun i => v (ix2 (i 0) (0 : Fin 1)) := by
  funext i
  obtain ⟨p, q, rfl⟩ : ∃ (p : Fin 256) (q : Fin 2048), i = ix2 p q := ⟨i 0, i 1, eq_ix2 i⟩
  refine broadcastTo_apply v broadcasts_S256x1_S256x2048 (ix2 p q) (ix2 p (0 : Fin 1)) fun ax => ?_
  match ax with
  | ⟨0, _⟩ =>
    show p.val = if (256 : Nat) = 1 then 0 else p.val
    rw [if_neg (by decide)]
  | ⟨1, _⟩ => rfl

/-! ## The entries of the plane -/

/-- The coordinate difference of a pair: the transposed block's row at the column less the rows block's column at the row. -/
def diffAt (a : Vec Ideal S256x1 .f32) (b : Vec Ideal S1x2048 .f32) (i : S256x2048.Idx) : EReal :=
  b (ix2 (0 : Fin 1) (i 1)) - a (ix2 (i 0) (0 : Fin 1))

variable (a0 a1 a2 : Vec Ideal S256x1 .f32) (b0 b1 b2 : Vec Ideal S1x2048 .f32)

/-- The squared distances of the plane's pairs. -/
def sqPlane (i : S256x2048.Idx) : EReal :=
  sq3 (wrapped (diffAt a0 b0 i)) (wrapped (diffAt a1 b1 i)) (wrapped (diffAt a2 b2 i))

theorem sqPlane_eq :
    k0_pay9 (F := Ideal) (k0_pay3 a0 b0) (k0_pay4 a1 b1) (k0_pay5 a1 b1) (k0_pay6 a1 b1) k0_pay7 k0_pay8 a2 b2
      = sqPlane a0 a1 a2 b0 b1 b2 := by
  simp only [k0_pay9, k0_pay3, k0_pay5, k0_pay6, k0_pay4, k0_pay7, k0_pay8, spreadRow, spreadCol, shapeCast_self]
  rfl

/-- Which pairs count: in range, and the column above the global row `p + v0`. -/
def countPlane (v0 : BitVec 32) (i : S256x2048.Idx) : BitVec 1 :=
  IntOp.andi (inRange (sqPlane a0 a1 a2 b0 b1 b2 i))
    (above (IntOp.addi (BitVec.ofNat 32 (i 0).val) v0) (BitVec.ofNat 32 (i 1).val))

theorem countPlane_eq (v0 : BitVec 32) :
    k0_pay10 (F := Ideal) v0 (k0_pay3 a0 b0) (k0_pay4 a1 b1) (k0_pay5 a1 b1) (k0_pay6 a1 b1) k0_pay7 k0_pay8 a2 b2
      = countPlane a0 a1 a2 b0 b1 b2 v0 := by
  funext i
  have h0 := iota_single_apply .tc S256x2048 32 0 iota_S256x2048_d0_w32 i
  have h1 := iota_single_apply .tc S256x2048 32 1 iota_S256x2048_d1_w32 i
  unfold countPlane
  rw [← sqPlane_eq, ← h0, ← h1]
  rfl

/-- The pair terms of the plane, `qrow` the row of charges. -/
def termPlane (v0 : BitVec 32) (qrow : Vec Ideal S1x2048 .f32) (i : S256x2048.Idx) : EReal :=
  term (countPlane a0 a1 a2 b0 b1 b2 v0 i)
    (qrow (ix2 (0 : Fin 1) (i 1)) * qrow (ix2 (0 : Fin 1) (i 1))) (sqPlane a0 a1 a2 b0 b1 b2 i)

/-- The reciprocal square roots of the plane (of `1` where a pair does not count). -/
theorem rsqPlane_eq (v0 : BitVec 32) :
    k0_pay11 (F := Ideal) v0 (k0_pay3 a0 b0) (k0_pay4 a1 b1) (k0_pay5 a1 b1) (k0_pay6 a1 b1) k0_pay7 k0_pay8 a2 b2
      = fun i => Ideal.rsqrt (Scalar.select (countPlane a0 a1 a2 b0 b1 b2 v0 i) (sqPlane a0 a1 a2 b0 b1 b2 i)
          (Ideal.ofBits .f32 0x3F800000#32)) := by
  unfold k0_pay11
  simp only [countPlane_eq, sqPlane_eq]
  rfl

/-- The prefactors `−C · q²` of the row of charges. -/
theorem prefactor_eq (qrow : Vec Ideal S1x2048 .f32) :
    k0_pay12 (F := Ideal) qrow = fun i => Ideal.ofBits .f32 0xC16667C5#32 * (qrow i * qrow i) := by
  unfold k0_pay12
  simp only [shapeCast_self]
  rfl

/-- A one-entry array recast `[1] → [1,1,1]`, its entry taken and spread over `[1,1]`, reads the one entry. -/
theorem extract_cast (r : FVec Ideal S1 .f32) (j : S1x1.Idx) :
    broadcast S1x1 (extractAt ![0, 0, 0] (shapeCast S1x1x1 r shapeCasts_S1_S1x1x1) inpos_S1x1x1_p0_0_0) j = r (ix1 (0 : Fin 1)) := by
  show shapeCast S1x1x1 r shapeCasts_S1_S1x1x1 _ = _
  exact shapeCast_apply r _ _ _ (by rw [Shape.rowMajor_val_one, Shape.rowMajor_val_three]; rfl)

/-- THE SUM: masked products of a row `Q` spread over the plane with a plane `R`, summed over the plane. -/
theorem pay1_at (M : IVec S256x2048 1) (R : FVec Ideal S256x2048 .f32) (Q : FVec Ideal S1x2048 .f32) (j : S1x1.Idx) :
    k0_pay1 (F := Ideal) M R Q j = ∑ p : Fin 256, ∑ q : Fin 2048,
      Scalar.select (M (ix2 p q)) (Q (ix2 (0 : Fin 1) q) * R (ix2 p q)) (Ideal.ofBits .f32 0x00000000#32) := by
  unfold k0_pay1
  refine (extract_cast _ j).trans ?_
  refine (Ideal.multiReduction_add_total (φ := .f32) _ 0x00000000#32 reduces_S1x256x2048_S1 (by decide) (.inl rfl) rfl _).trans ?_
  rw [Cert.LibIdxSums.sum_idx3, Fin.sum_univ_one]
  refine Finset.sum_congr rfl fun p _ => Finset.sum_congr rfl fun q _ => ?_
  rw [shapeCast_ab_1ab_apply, spreadRow]
  rfl

/-- A GRID POINT'S NUMBER is the sum of the plane's pair terms. -/
theorem blockNumber_at (i : grid0.Coords) (x0 : Vec Ideal S256x3 .f32) (x1 : Vec Ideal S3x2048 .f32) (x2 : Vec Ideal S1x2048 .f32)
    (j : S1x1.Idx) :
    blockNumber (F := Ideal) i x0 x1 x2 j = ∑ p : Fin 256, ∑ q : Fin 2048,
      termPlane (View.ld x0 (Rect.unit ![0, 0] ![256, 1] inb_S256x3_S256x1_0_0))
        (View.ld x0 (Rect.unit ![0, 1] ![256, 1] inb_S256x3_S256x1_0_1))
        (View.ld x0 (Rect.unit ![0, 2] ![256, 1] inb_S256x3_S256x1_0_2))
        (View.ld x1 (Rect.unit ![0, 0] ![1, 2048] inb_S3x2048_S1x2048_0_0))
        (View.ld x1 (Rect.unit ![1, 0] ![1, 2048] inb_S3x2048_S1x2048_1_0))
        (View.ld x1 (Rect.unit ![2, 0] ![1, 2048] inb_S3x2048_S1x2048_2_0))
        (Scalar.muli (BitVec.ofNat 32 (i 0).val) 256#32)
        (View.ld x2 (Rect.unit ![0, 0] ![1, 2048] inb_S1x2048_S1x2048_0_0)) (ix2 p q) := by
  unfold blockNumber
  refine (pay1_at _ _ _ j).trans ?_
  refine Finset.sum_congr rfl fun p _ => Finset.sum_congr rfl fun q _ => ?_
  rw [countPlane_eq, rsqPlane_eq, prefactor_eq]
  rfl

/-- One entry of the plane is a pair term of the specification, given what the blocks hold there: the rows block's
    columns at row `p` are atom `i`'s coordinates, the transposed block's rows at column `q` atom `q`'s, the charge row at
    `q` its charge, and the global row word is `i`. -/
theorem termPlane_at (v0 : BitVec 32) (qrow : Vec Ideal S1x2048 .f32) (p : Fin 256) (q : Fin 2048)
    (X : (⟨2, ![2048, 3]⟩ : Shape).Idx → EReal) (Q : (⟨1, ![2048]⟩ : Shape).Idx → EReal) (i : Fin 2048)
    (ha0 : a0 (ix2 p (0 : Fin 1)) = X (ix2 i 0)) (ha1 : a1 (ix2 p (0 : Fin 1)) = X (ix2 i 1)) (ha2 : a2 (ix2 p (0 : Fin 1)) = X (ix2 i 2))
    (hb0 : b0 (ix2 (0 : Fin 1) q) = X (ix2 q 0)) (hb1 : b1 (ix2 (0 : Fin 1) q) = X (ix2 q 1)) (hb2 : b2 (ix2 (0 : Fin 1) q) = X (ix2 q 2))
    (hq : qrow (ix2 (0 : Fin 1) q) = Q (ix1 q))
    (hv : IntOp.addi (BitVec.ofNat 32 p.val) v0 = BitVec.ofNat 32 i.val) :
    termPlane a0 a1 a2 b0 b1 b2 v0 qrow (ix2 p q) = energy X Q i q := by
  unfold termPlane countPlane sqPlane diffAt energy countOf sqOf dif
  show term (IntOp.andi (inRange (sq3 (wrapped (b0 (ix2 (0 : Fin 1) q) - a0 (ix2 p (0 : Fin 1))))
        (wrapped (b1 (ix2 (0 : Fin 1) q) - a1 (ix2 p (0 : Fin 1)))) (wrapped (b2 (ix2 (0 : Fin 1) q) - a2 (ix2 p (0 : Fin 1))))))
      (above (IntOp.addi (BitVec.ofNat 32 p.val) v0) (BitVec.ofNat 32 q.val)))
    (qrow (ix2 (0 : Fin 1) q) * qrow (ix2 (0 : Fin 1) q))
    (sq3 (wrapped (b0 (ix2 (0 : Fin 1) q) - a0 (ix2 p (0 : Fin 1))))
        (wrapped (b1 (ix2 (0 : Fin 1) q) - a1 (ix2 p (0 : Fin 1)))) (wrapped (b2 (ix2 (0 : Fin 1) q) - a2 (ix2 p (0 : Fin 1))))) = _
  rw [ha0, ha1, ha2, hb0, hb1, hb2, hq, hv]

end Cert.KernelIdeal.BlockSum

end
-- ==== Proof.Blocks.lean ====
/-
  What the kernel's three input blocks hold, read off the arguments.

  At grid point `t` the rows block is rows `256 t … 256 t + 255` of the positions; the second block is the whole
  transposed positions (entry `(k, q)` is `x[q, k]`); the third is the charges as one row.
-/
import proofs.«170483_g50903952392740_cont_sun_c4_305_3_alg».proof.Proof.BodyIdeal
import Idealize.ShloMosaic.Lib.Pipeline.Value
import Idealize.ShloMosaic.Lib.ValueLayout
import Idealize.ShloMosaic.Lib.StableHlo.Run

set_option maxRecDepth 16384

noncomputable section

namespace Cert.KernelIdeal.Blocks

open Cert.KernelIdeal Cert.KernelIdeal.Gen Cert.KernelIdeal.Body
open Idealize.ShloMosaic Idealize.ShloMosaic.TcCoe Idealize.ShloMosaic.ValueIdx
open Idealize.SL Idealize.SL.Sem

variable {F : FTy → Type} [FloatOps F]
variable (m : (ℓ : Loc nD τ sig) → Buf (Elt F) ℓ)

/-- Block indices of the three input windows: the rows block moves with the point, the other two stay. -/
theorem index_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0 :=
  (by decide +kernel : ∀ t : Fin grid0.N, _)

theorem row_lt (t : Fin cfg0.N) (p : Fin 256) : t.val * 256 + p.val < 2048 := by
  have := lt_of_lt_of_eq t.isLt (show cfg0.N = 8 from N_0); have := p.isLt; omega

/-- The rows block at point `t`, entry `(p, k)`: position `x[256 t + p, k]`. -/
theorem rows_at (c : Dev nD) (t : Fin cfg0.N) (p : Fin 256) (k : Fin 3) :
    iblk m c 0 t (ix2 p k) = m ((c : Thread nD τ).loc main_arg0) (ix2 ⟨t.val * 256 + p.val, row_lt t p⟩ k) := by
  obtain ⟨e0, e1, -⟩ := index_facts t
  show V m c main_arg0 (((cfg0.win 0).blk t).view.emb (ix2 p k)) = _
  rw [V_main_arg0]
  refine congrArg (m ((c : Thread nD τ).loc main_arg0)) (funext fun a => Fin.ext ?_)
  match a with
  | ⟨0, _⟩ => show win0_0.index t (0 : Fin 2) * 256 + 1 * p.val = t.val * 256 + p.val; rw [e0]; omega
  | ⟨1, _⟩ => show win0_0.index t (1 : Fin 2) * 3 + 1 * k.val = k.val; rw [e1]; omega

/-- The transposed positions as the call finds them. -/
theorem xT_eq (c : Dev nD) :
    (V m c main_v0 : S3x2048.Idx → Elt F .f32)
      = transpose S3x2048 [1, 0] (m ((c : Thread nD τ).loc main_arg0)) transposes_S2048x3_S3x2048_1_0 := by
  show StableHlo.after hostOps0 (fun b => m (c, b)) (Proc.devRef .tc main_v0) = _
  after_results <;> rfl

/-- The second block at any point, entry `(k, q)`: position `x[q, k]`. -/
theorem xT_at (c : Dev nD) (t : Fin cfg0.N) (k : Fin 3) (q : Fin 2048) :
    iblk m c 1 t (ix2 k q) = m ((c : Thread nD τ).loc main_arg0) (ix2 q k) := by
  obtain ⟨-, -, e0, e1, -⟩ := index_facts t
  show V m c main_v0 (((cfg0.win 1).blk t).view.emb (ix2 k q)) = _
  have hemb : ((cfg0.win 1).blk t).view.emb (ix2 k q) = ix2 k q := funext fun a => Fin.ext (by
    match a with
    | ⟨0, _⟩ => show win0_1.index t (0 : Fin 2) * 3 + 1 * k.val = k.val; rw [e0]; omega
    | ⟨1, _⟩ => show win0_1.index t (1 : Fin 2) * 2048 + 1 * q.val = q.val; rw [e1]; omega)
  rw [hemb, xT_eq]
  exact transpose_ix2_apply _ _ k q

/-- The charges as one row, as the call finds them. -/
theorem qrow_eq (c : Dev nD) :
    (V m c main_v1 : S1x2048.Idx → Elt F .f32)
      = shapeCast S1x2048 (m ((c : Thread nD τ).loc main_arg1)) shapeCasts_S2048_S1x2048 := by
  show StableHlo.after hostOps0 (fun b => m (c, b)) (Proc.devRef .tc main_v1) = _
  after_results <;> rfl

/-- The third block at any point, entry `(0, q)`: charge `q`. -/
theorem qrow_at (c : Dev nD) (t : Fin cfg0.N) (u : Fin 1) (q : Fin 2048) :
    iblk m c 2 t (ix2 u q) = m ((c : Thread nD τ).loc main_arg1) (ix1 q) := by
  obtain ⟨-, -, -, -, e0, e1⟩ := index_facts t
  show V m c main_v1 (((cfg0.win 2).blk t).view.emb (ix2 u q)) = _
  have hemb : ((cfg0.win 2).blk t).view.emb (ix2 u q) = ix2 u q := funext fun a => Fin.ext (by
    match a with
    | ⟨0, _⟩ => show win0_2.index t (0 : Fin 2) * 1 + 1 * u.val = u.val; rw [e0]; omega
    | ⟨1, _⟩ => show win0_2.index t (1 : Fin 2) * 2048 + 1 * q.val = q.val; rw [e1]; omega)
  rw [hemb, qrow_eq]
  exact shapeCast_a_1a_apply _ _ u q

/-- A load of column `k` of a `[256, 3]` block reads the block at `(p, k)`. -/
theorem col_read (x0 : Vec F S256x3 .f32) (k : Fin 3)
    (inb : ∀ a, (![0, k.val] : Fin 2 → Nat) a + (![256, 1] : Fin 2 → Nat) a ≤ S256x3.size a) (p : Fin 256) (u : Fin 1) :
    View.ld x0 (Rect.unit (s := S256x3) ![0, k.val] ![256, 1] inb) (ix2 p u) = x0 (ix2 p k) := by
  show x0 ((Rect.unit (s := S256x3) ![0, k.val] ![256, 1] inb).emb (ix2 p u)) = _
  refine congrArg x0 (funext fun a => Fin.ext ?_)
  match a with
  | ⟨0, _⟩ => show 0 + 1 * p.val = p.val; omega
  | ⟨1, _⟩ => show k.val + 1 * u.val = k.val; have := u.isLt; omega

/-- A load of row `k` of a `[3, 2048]` block reads the block at `(k, q)`. -/
theorem row_read (x1 : Vec F S3x2048 .f32) (k : Fin 3)
    (inb : ∀ a, (![k.val, 0] : Fin 2 → Nat) a + (![1, 2048] : Fin 2 → Nat) a ≤ S3x2048.size a) (u : Fin 1) (q : Fin 2048) :
    View.ld x1 (Rect.unit (s := S3x2048) ![k.val, 0] ![1, 2048] inb) (ix2 u q) = x1 (ix2 k q) := by
  show x1 ((Rect.unit (s := S3x2048) ![k.val, 0] ![1, 2048] inb).emb (ix2 u q)) = _
  refine congrArg x1 (funext fun a => Fin.ext ?_)
  match a with
  | ⟨0, _⟩ => show k.val + 1 * u.val = k.val; have := u.isLt; omega
  | ⟨1, _⟩ => show 0 + 1 * q.val = q.val; omega

end Cert.KernelIdeal.Blocks

end
-- ==== Proof.Total.lean ====
/-
  The kernel's result is the total over all pairs.

  Point `t`'s number is the sum of the pair terms of rows `256 t … 256 t + 255` against all 2048 atoms; the running sum after
  the last point is the sum over the 8 points; and 8 blocks of 256 rows are the 2048 rows.
-/
import proofs.«170483_g50903952392740_cont_sun_c4_305_3_alg».proof.Proof.BlockSum
import proofs.«170483_g50903952392740_cont_sun_c4_305_3_alg».proof.Proof.Blocks

set_option maxRecDepth 16384

noncomputable section

open scoped BigOperators

namespace Cert.KernelIdeal.Total

open Cert.KernelIdeal Cert.KernelIdeal.Gen Cert.KernelIdeal.Body Cert.KernelIdeal.Running Cert.KernelIdeal.BlockSum
  Cert.KernelIdeal.Blocks
open Idealize.ShloMosaic Idealize.ShloMosaic.TcCoe Idealize.ShloMosaic.ValueIdx Cert.PairEnergy
open Idealize.SL Idealize.SL.Sem

variable (m : (ℓ : Loc nD τ sig) → Buf (Elt Ideal) ℓ)

/-- Point `t`'s number: the pair terms of its 256 rows against all atoms. -/
theorem number_eq (c : Dev nD) (t : Fin cfg0.N) (j : S1x1.Idx) :
    blockNumber (F := Ideal) (grid0.coords t) (iblk m c 0 t) (iblk m c 1 t) (iblk m c 2 t) j
      = ∑ p : Fin 256, ∑ q : Fin 2048,
          energy (m ((c : Thread nD τ).loc main_arg0)) (m ((c : Thread nD τ).loc main_arg1)) ⟨t.val * 256 + p.val, row_lt t p⟩ q := by
  refine (blockNumber_at _ _ _ _ j).trans ?_
  refine Finset.sum_congr rfl fun p _ => Finset.sum_congr rfl fun q _ => ?_
  have hc : (grid0.coords t 0).val = t.val := (by decide +kernel : ∀ t : Fin grid0.N, (grid0.coords t 0).val = t.val) t
  refine termPlane_at _ _ _ _ _ _ _ _ p q _ _ ⟨t.val * 256 + p.val, row_lt t p⟩ ?_ ?_ ?_ ?_ ?_ ?_ ?_ ?_
  · exact (col_read (iblk m c 0 t) 0 _ p 0).trans (rows_at m c t p 0)
  · exact (col_read (iblk m c 0 t) 1 _ p 0).trans (rows_at m c t p 1)
  · exact (col_read (iblk m c 0 t) 2 _ p 0).trans (rows_at m c t p 2)
  · exact (row_read (iblk m c 1 t) 0 _ 0 q).trans (xT_at m c t 0 q)
  · exact (row_read (iblk m c 1 t) 1 _ 0 q).trans (xT_at m c t 1 q)
  · exact (row_read (iblk m c 1 t) 2 _ 0 q).trans (xT_at m c t 2 q)
  · exact (congrFun (View.ld_unit_zero (S := S1x2048) hz _ (iblk m c 2 t)) (ix2 (0 : Fin 1) q)).trans (qrow_at m c t 0 q)
  · rw [hc]; exact row_word t.val p.val

/-- Point `t`'s number as a function of the natural number `t` (zero past the grid). -/
def num (c : Dev nD) (j : S1x1.Idx) (t : ℕ) : EReal :=
  if h : t < cfg0.N then
    blockNumber (F := Ideal) (grid0.coords ⟨t, h⟩) (iblk m c 0 ⟨t, h⟩) (iblk m c 1 ⟨t, h⟩) (iblk m c 2 ⟨t, h⟩) j
  else 0

/-- The running sum after point `n` is the sum of the numbers of points `0 … n`. -/
theorem running_sum (c : Dev nD) (j : S1x1.Idx) : ∀ (n : ℕ) (h : n < cfg0.N),
    running m c n h j = ∑ t ∈ Finset.range (n + 1), num m c j t
  | 0, h => by
    rw [Finset.sum_range_one]; unfold num; rw [dif_pos h]; rfl
  | n + 1, h => by
    rw [Finset.sum_range_succ, ← running_sum c j n (Nat.lt_of_succ_lt h)]
    unfold num; rw [dif_pos h]; rfl

theorem num_eq (c : Dev nD) (j : S1x1.Idx) (t : Fin 8) :
    num m c j t.val = ∑ p : Fin 256, ∑ q : Fin 2048,
      energy (m ((c : Thread nD τ).loc main_arg0)) (m ((c : Thread nD τ).loc main_arg1))
        ⟨t.val * 256 + p.val, Cert.LibIdxSums.block_lt t p⟩ q := by
  have h : t.val < cfg0.N := by rw [show cfg0.N = 8 from N_0]; exact t.isLt
  unfold num; rw [dif_pos h]
  exact number_eq m c ⟨t.val, h⟩ j

/-- THE OUTPUT ARRAY's one entry is the total over all pairs. -/
theorem final_total (c : Dev nD) (j : S1x1.Idx) :
    finalBlock m c j = total (m ((c : Thread nD τ).loc main_arg0)) (m ((c : Thread nD τ).loc main_arg1)) := by
  refine (running_sum m c j 7 _).trans ?_
  show ∑ t ∈ Finset.range 8, num m c j t = _
  rw [Finset.sum_range]
  unfold total
  refine Eq.trans ?_ (Cert.LibIdxSums.sum_fin_blocks 8 256
    (fun i => ∑ q : Fin 2048, energy (m ((c : Thread nD τ).loc main_arg0)) (m ((c : Thread nD τ).loc main_arg1)) i q)).symm
  refine Finset.sum_congr rfl fun t _ => ?_
  exact num_eq m c j t

/-- THE RESULT, the output array recast to a scalar, is the total. -/
theorem result_total (c : Dev nD) (k : S_.Idx) :
    result m c k = total (m ((c : Thread nD τ).loc main_arg0)) (m ((c : Thread nD τ).loc main_arg1)) := by
  unfold result
  show finalBlock m c _ = _
  exact final_total m c _

end Cert.KernelIdeal.Total

end
-- ==== Proof.PairSum.lean ====
/-
  The reference's result: zero plus the sum of the pair terms over all 2048 × 2048 pairs.

  Read one operation at a time, the reference forms, for each pair `(i, j)` and coordinate `k`, the difference
  `x[j,k] − x[i,k]` shifted by `(−[d ≥ ½·24] + [d < −½·24]) · 24`; sums the three squares from zero; tests "below 6.25 and
  not zero" and "not `i ≥ j`"; and where the tests hold divides `−C · q[j]²` by the square root of the squared
  distance.  Entry by entry that is the pair term of the specification.
-/
import proofs.«170483_g50903952392740_cont_sun_c4_305_3_alg».proof.Proof.Gen.ReferenceIdeal.Read
import proofs.«170483_g50903952392740_cont_sun_c4_305_3_alg».proof.Proof.PairEnergy
import Idealize.ShloMosaic.Lib.ValueIdx

set_option maxRecDepth 16384

noncomputable section

open scoped BigOperators

namespace Cert.ReferenceIdeal.PairSum

open Cert.ReferenceIdeal Cert.ReferenceIdeal.Gen Cert.ReferenceIdeal.Read
open Idealize.ShloMosaic Idealize.ShloMosaic.ValueIdx Cert.PairEnergy

variable (x : S2048x3.Idx → EReal) (q : S2048.Idx → EReal)

theorem v4_at (i j : Fin 2048) (k : Fin 3) : val_main_v4 (F := Ideal) x (ix3 i j k) = dif x i j k := by
  rw [val_main_v4_apply, val_main_v2_apply, val_main_v0_apply, val_main_v3_apply, val_main_v1_apply]
  unfold dif
  show x _ - x _ = x _ - x _
  congr 1 <;> exact congrArg x (funext fun a => Fin.ext (by match a with | ⟨0, _⟩ => rfl | ⟨1, _⟩ => rfl))

theorem v8_at (j : S2048x2048x3.Idx) :
    val_main_v8 (F := Ideal) j = Ideal.ofBits .f32 0x3F000000#32 * Ideal.ofBits .f32 0x41C00000#32 := by
  rw [val_main_v8_apply, val_main_v7_apply, val_main_v6_apply, val_main_v5_apply]; rfl

theorem v15_at (j : S2048x2048x3.Idx) :
    val_main_v15 (F := Ideal) j = Ideal.ofBits .f32 0xBF000000#32 * Ideal.ofBits .f32 0x41C00000#32 := by
  rw [val_main_v15_apply, val_main_v14_apply, val_main_v13_apply, val_main_v12_apply]; rfl

theorem v20_at (j : S2048x2048x3.Idx) : val_main_v20 (F := Ideal) j = Ideal.ofBits .f32 0x41C00000#32 := by
  rw [val_main_v20_apply, val_main_v19_apply]; rfl

/-- The shifted difference. -/
theorem v22_at (i j : Fin 2048) (k : Fin 3) : val_main_v22 (F := Ideal) x (ix3 i j k) = wrapped (dif x i j k) := by
  rw [val_main_v22_apply, val_main_v21_apply, val_main_v18_apply, val_main_v11_apply, val_main_v10_apply, val_main_v9_apply,
    val_main_v17_apply, val_main_v16_apply, v4_at, v8_at, v15_at, v20_at]
  exact congrArg (dif x i j k + ·) (shift_bits (dif x i j k))

/-- The squared distance. -/
theorem v24_at (i j : Fin 2048) : val_main_v24 (F := Ideal) x (ix2 i j) = sqOf x i j := by
  rw [val_main_v24_apply]
  have hk : ∀ k : Fin 3, val_main_v23 (F := Ideal) x (idx_main_v24 (ix2 i j) k) = wrapped (dif x i j k) * wrapped (dif x i j k) := fun k => by
    have e : idx_main_v24 (ix2 i j) k = ix3 i j k :=
      funext fun a => Fin.ext (by match a with | ⟨0, _⟩ => rfl | ⟨1, _⟩ => rfl | ⟨2, _⟩ => rfl)
    rw [e, val_main_v23_apply, v22_at]; rfl
  rw [Finset.sum_congr rfl fun k _ => hk k]
  exact sq3_sum fun k => wrapped (dif x i j k)

/-- Which pairs count. -/
theorem v32_at (i j : Fin 2048) : val_main_v32 (F := Ideal) x (ix2 i j) = countOf x i j := by
  rw [val_main_v32_apply, val_main_v29_apply, val_main_v26_apply, val_main_v28_apply, val_main_v31_apply,
    val_main_call0_v4_apply, val_main_call0_v2_apply, val_main_call0_v0_apply, val_main_call0_v1_apply,
    val_main_call0_v3_apply, val_main_call0_v5_apply, val_main_v30_apply, val_main_v25_apply, val_main_v27_apply, v24_at]
  unfold countOf
  refine congrArg (IntOp.andi (inRange (sqOf x i j))) ?_
  show Scalar.select (IntOp.cmpi .sge (IntOp.addi (BitVec.ofNat 32 i.val) 0#32) (BitVec.ofNat 32 j.val)) 0#1 1#1 = _
  rw [add_zero_word, above_select]

/-- The pair term. -/
theorem v41_at (i j : Fin 2048) : val_main_v41 (F := Ideal) x q (ix2 i j) = energy x q i j := by
  rw [val_main_v41_apply, val_main_v40_apply, val_main_v39_apply, val_main_v38_apply, val_main_v37_apply, val_main_v36_apply,
    val_main_v35_apply, val_main_v34_apply, val_main_v33_apply, val_main_call1_v1_apply, val_main_call2_v1_apply, v32_at, v24_at]
  unfold energy
  have hq : q (idx_main_v35 (idx_main_v39 (ix2 i j))) = q (ix1 j) :=
    congrArg q (funext fun a => Fin.ext (by match a with | ⟨0, _⟩ => rfl))
  rw [hq]
  exact term_div (countOf x i j) (q (ix1 j) * q (ix1 j)) (sqOf x i j)
    (fun h => pos_of_inRange (sq3_nonneg _ _ _) h)

/-- THE REFERENCE'S RESULT: zero plus the sum over all pairs. -/
theorem result_eq (k : S_.Idx) :
    val_main_v42 (F := Ideal) x q k = Ideal.ofBits .f32 0x00000000#32 + total x q := by
  unfold total
  rw [val_main_v42_apply, sum_idx2]
  refine congrArg (_ + ·) (Finset.sum_congr rfl fun i _ => Finset.sum_congr rfl fun j _ => ?_)
  exact v41_at x q i j

end Cert.ReferenceIdeal.PairSum

end
-- ==== Proof.lean ====
/-
  The certificate of the periodic Coulomb sum kernel against its reference.

  The kernel walks the 2048 × 2048 pair matrix in 8 blocks of 256 rows: each grid point forms the sum of the pair
  energies of its rows — coordinate differences moved into the central cell of the box of side 24, squared
  distance, cutoff 6.25, upper triangle, `−C · q[j]² · rsqrt` — and keeps a running total in a 1 × 1 output block,
  written back once after the last point; the result is that block recast to a scalar.  The reference forms the
  whole pair matrix at once, with the shift spelt `(−[d ≥ ½·24] + [d < −½·24]) · 24`, the triangle as "not `i ≥ j`", the
  energy as a quotient by the square root, and sums it from zero.

  On the extended reals both are the same total (Proof/PairEnergy.lean): every step agrees entry by entry with no
  assumption on the numbers, and a sum does not depend on how it is blocked.  The frames: the kernel's body is run
  in its two cases (first point: store; later points: add to what the point before left), which gives the
  pipeline's body obligation and the run of @main around the call, at the bit-exact instance and at the extended
  reals alike (Proof/BodyBits.lean, Proof/BodyIdeal.lean); the reference's frame is its run with the result dropped.
  The idealization rewrote nothing, so `preserves` has nothing to say.
-/
import proofs.«170483_g50903952392740_cont_sun_c4_305_3_alg».proof.Defs
import proofs.«170483_g50903952392740_cont_sun_c4_305_3_alg».proof.Proof.Gen.Kernel
import proofs.«170483_g50903952392740_cont_sun_c4_305_3_alg».proof.Proof.Gen.KernelIdeal
import proofs.«170483_g50903952392740_cont_sun_c4_305_3_alg».proof.Proof.Gen.ReferenceIdeal
import proofs.«170483_g50903952392740_cont_sun_c4_305_3_alg».proof.Proof.Gen.ReferenceIdeal.Run
import proofs.«170483_g50903952392740_cont_sun_c4_305_3_alg».proof.Proof.Gen.ReferenceIdeal.Read
import proofs.«170483_g50903952392740_cont_sun_c4_305_3_alg».proof.Proof.Gen.Pre_finite_inputs
import proofs.«170483_g50903952392740_cont_sun_c4_305_3_alg».proof.Proof.BodyBits
import proofs.«170483_g50903952392740_cont_sun_c4_305_3_alg».proof.Proof.BodyIdeal
import proofs.«170483_g50903952392740_cont_sun_c4_305_3_alg».proof.Proof.Total
import proofs.«170483_g50903952392740_cont_sun_c4_305_3_alg».proof.Proof.PairSum
import Idealize.ShloMosaic.Adequacy
import Idealize.ShloMosaic.Init

noncomputable section

namespace Cert.Proof

open Idealize.ShloMosaic Idealize.SL.Sem

/-- The kernel as printed runs and leaves its arguments unchanged. -/
theorem frame_k : Cert.frame_Kernel (hKernel := Cert.Kernel.Gen.facts) (hPre_finite_inputs := Cert.Pre_finite_inputs.Gen.facts) :=
  fun m ρ _ => Cert.Kernel.Body.frame m ρ

/-- So does its reading on the extended reals. -/
theorem frame_ki : Cert.frame_KernelIdeal (hKernelIdeal := Cert.KernelIdeal.Gen.facts) (hPre_finite_inputs := Cert.Pre_finite_inputs.Gen.facts) :=
  fun m ρ _ => Cert.KernelIdeal.Body.frame m ρ

/-- The reference's frame is its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- On the extended reals the kernel's result and the reference's are the same total over all pairs: the kernel's is
    the total, the reference's zero plus the total. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Running.result m c, Cert.KernelIdeal.Running.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v42_eq, (hagree c).1, (hagree c).2]
  funext k
  rw [Cert.ReferenceIdeal.PairSum.result_eq]
  refine Eq.trans ?_ (Cert.KernelIdeal.Total.result_total m c k).symm
  rw [Cert.PairEnergy.lit_zero, zero_add]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
